-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)) (v2 : (c : Dev Cert.KernelIdeal.nD) → Buf (Elt Ideal) ((c.tc : Thread Cert.KernelIdeal.nD Cert.KernelIdeal.τ).loc Cert.KernelIdeal.main_v18_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_v18_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v55) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384x1024 : Shape := ⟨2, ![16384, 1024]⟩
abbrev S1024x512 : Shape := ⟨2, ![1024, 512]⟩
abbrev S1024 : Shape := ⟨1, ![1024]⟩
abbrev S1024x1024 : Shape := ⟨2, ![1024, 1024]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part5 {F : FTy → Type} [FloatOps F] (main_arg18 : FVec F S1024 .f32) (main_arg19 : FVec F S1024 .f32) (main_v83 : IVec S_ 1) (main_v84 : FVec F S1024 .f32) (main_cst_32 : FVec F S_ .f32) : IVec S_ 1 :=
  let main_v85 : FVec F S1024 .f32 := broadcastInDim S1024 ![] bcast_S_S1024 main_cst_32
  let main_v86 : IVec S1024 1 := cmpf .olt main_v84 main_v85
  let main_c_33 : IVec S_ 1 := constantI S_ 1 1#1
  let main_v87 : IVec S_ 1 := (fun x v => Host.reduce IntOp.andi x v reducesTo_S1024_S_d0 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  let main_v94 : FVec F S1024 .f32 := Host.absf main_arg19
  let main_cst_36 : FVec F S_ .f32 := constant S_ .f32 0x7F800000#32
  let main_v95 : FVec F S1024 .f32 := broadcastInDim S1024 ![] bcast_S_S1024 main_cst_36
  let main_v96 : IVec S1024 1 := cmpf .olt main_v94 main_v95
  let main_c_37 : IVec S_ 1 := constantI S_ 1 1#1
  let main_v97 : IVec S_ 1 := (fun x v => Host.reduce IntOp.andi x v reducesTo_S1024_S_d0 h_S_) main_v96 main_c_37
  let main_v98 : IVec S_ 1 := andi main_v93 main_v97
  main_v98

def fn_part4 {F : FTy → Type} [FloatOps F] (main_arg14 : FVec F S1024x1024 .f32) (main_arg15 : FVec F S1024x1024 .f32) (main_arg16 : FVec F S1024 .f32) (main_arg17 : FVec F S1024 .f32) (main_arg18 : FVec F S1024 .f32) (main_arg19 : FVec F S1024 .f32) (main_v63 : IVec S_ 1) (main_v67 : IVec S_ 1) : IVec S_ 1 :=
  let main_v68 : IVec S_ 1 := andi main_v63 main_v67
  let main_v69 : FVec F S1024x1024 .f32 := Host.absf main_arg14
  let main_cst_26 : FVec F S_ .f32 := constant S_ .f32 0x7F800000#32
  let main_v70 : FVec F S1024x1024 .f32 := broadcastInDim S1024x1024 ![] bcast_S_S1024x1024 main_cst_26
  let main_v71 : IVec S1024x1024 1 := cmpf .olt main_v69 main_v70
  let main_c_27 : IVec S_ 1 := constantI S_ 1 1#1
  let main_v72 : IVec S_ 1 := (fun x v => Host.reduce IntOp.andi x v reducesTo_S1024x1024_S_d0_1 h_S_) main_v71 main_c_27
  let main_v73 : IVec S_ 1 := andi main_v68 main_v72
  let main_v74 : FVec F S1024x1024 .f32 := Host.absf main_arg15
  let main_cst_28 : FVec F S_ .f32 := constant S_ .f32 0x7F800000#32
  let main_v75 : FVec F S1024x1024 .f32 := broadcastInDim S1024x1024 ![] bcast_S_S1024x1024 main_cst_28
  let main_v76 : IVec S1024x1024 1 := cmpf .olt main_v74 main_v75
  let main_c_29 : IVec S_ 1 := constantI S_ 1 1#1
  let main_v77 : IVec S_ 1 := (fun x v => Host.reduce IntOp.andi x v reducesTo_S1024x1024_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S1024 .f32) (main_arg12 : FVec F S1024x1024 .f32) (main_arg13 : FVec F S1024x1024 .f32) (main_arg14 : FVec F S1024x1024 .f32) (main_arg15 : FVec F S1024x1024 .f32) (main_arg16 : FVec F S1024 .f32) (main_arg17 : FVec F S1024 .f32) (main_arg18 : FVec F S1024 .f32) (main_arg19 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_arg16 main_arg17 main_arg18 main_arg19 main_v63 main_v67

def fn_part2 {F : FTy → Type} [FloatOps F] (main_arg7 : FVec F S1024x512 .f32) (main_arg8 : FVec F S1024 .f32) (main_arg9 : FVec F S1024 .f32) (main_arg10 : FVec F S1024 .f32) (main_arg11 : FVec F S1024 .f32) (main_arg12 : FVec F S1024x1024 .f32) (main_arg13 : FVec F S1024x1024 .f32) (main_arg14 : FVec F S1024x1024 .f32) (main_arg15 : FVec F S1024x1024 .f32) (main_arg16 : FVec F S1024 .f32) (main_arg17 : FVec F S1024 .f32) (main_arg18 : FVec F S1024 .f32) (main_arg19 : FVec F S1024 .f32) (main_v33 : IVec S_ 1) : IVec S_ 1 :=
  let main_v34 : FVec F S1024x512 .f32 := Host.absf main_arg7
  let main_cst_12 : FVec F S_ .f32 := constant S_ .f32 0x7F800000#32
  let main_v35 : FVec F S1024x512 .f32 := broadcastInDim S1024x512 ![] bcast_S_S1024x512 main_cst_12
  let main_v36 : IVec S1024x512 1 := cmpf .olt main_v34 main_v35
  let main_c_13 : IVec S_ 1 := constantI S_ 1 1#1
  let main_v37 : IVec S_ 1 := (fun x v => Host.reduce IntOp.andi x v reducesTo_S1024x512_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S1024x512 .f32) (main_arg5 : FVec F S1024x512 .f32) (main_arg6 : FVec F S1024x512 .f32) (main_arg7 : FVec F S1024x512 .f32) (main_arg8 : FVec F S1024 .f32) (main_arg9 : FVec F S1024 .f32) (main_arg10 : FVec F S1024 .f32) (main_arg11 : FVec F S1024 .f32) (main_arg12 : FVec F S1024x1024 .f32) (main_arg13 : FVec F S1024x1024 .f32) (main_arg14 : FVec F S1024x1024 .f32) (main_arg15 : FVec F S1024x1024 .f32) (main_arg16 : FVec F S1024 .f32) (main_arg17 : FVec F S1024 .f32) (main_arg18 : FVec F S1024 .f32) (main_arg19 : FVec F S1024 .f32) (main_v13 : IVec S_ 1) (main_v16 : IVec S16384x1024 1) : IVec S_ 1 :=
  let main_c_5 : IVec S_ 1 := constantI S_ 1 1#1
  let main_v17 : IVec S_ 1 := (fun x v => Host.reduce IntOp.andi x v reducesTo_S16384x1024_S_d0_1 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S1024x512 .f32 := Host.absf main_arg5
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S1024x512 .f32 := Host.absf main_arg6
  let main_cst_10 : FVec F S_ .f32 := constant S_ .f32 0x7F800000#32
  let main_v30 : FVec F S1024x512 .f32 := broadcastInDim S1024x512 ![] bcast_S_S1024x512 main_cst_10
  let main_v31 : IVec S1024x512 1 := cmpf .olt main_v29 main_v30
  let main_c_11 : IVec S_ 1 := constantI S_ 1 1#1
  let main_v32 : IVec S_ 1 := (fun x v => Host.reduce IntOp.andi x v reducesTo_S1024x512_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S16384x512 .f32) (main_arg1 : FVec F S16384x1024 .f32) (main_arg2 : FVec F S16384x1024 .f32) (main_arg3 : FVec F S16384x1024 .f32) (main_arg4 : FVec F S1024x512 .f32) (main_arg5 : FVec F S1024x512 .f32) (main_arg6 : FVec F S1024x512 .f32) (main_arg7 : FVec F S1024x512 .f32) (main_arg8 : FVec F S1024 .f32) (main_arg9 : FVec F S1024 .f32) (main_arg10 : FVec F S1024 .f32) (main_arg11 : FVec F S1024 .f32) (main_arg12 : FVec F S1024x1024 .f32) (main_arg13 : FVec F S1024x1024 .f32) (main_arg14 : FVec F S1024x1024 .f32) (main_arg15 : FVec F S1024x1024 .f32) (main_arg16 : FVec F S1024 .f32) (main_arg17 : FVec F S1024 .f32) (main_arg18 : FVec F S1024 .f32) (main_arg19 : FVec F S1024 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S16384x1024 .f32 := Host.absf main_arg3
  let main_cst_4 : FVec F S_ .f32 := constant S_ .f32 0x7F800000#32
  let main_v15 : FVec F S16384x1024 .f32 := broadcastInDim S16384x1024 ![] bcast_S_S16384x1024 main_cst_4
  let main_v16 : IVec S16384x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S16384x512 : Shape := ⟨2, ![16384, 512]⟩
abbrev S16384x1024 : Shape := ⟨2, ![16384, 1024]⟩
abbrev S1024x512 : Shape := ⟨2, ![1024, 512]⟩
abbrev S1024 : Shape := ⟨1, ![1024]⟩
abbrev S1024x1024 : Shape := ⟨2, ![1024, 1024]⟩
abbrev S512x1024 : Shape := ⟨2, ![512, 1024]⟩
abbrev S512x4096 : Shape := ⟨2, ![512, 4096]⟩
abbrev S1024x4096 : Shape := ⟨2, ![1024, 4096]⟩
abbrev S4096 : Shape := ⟨1, ![4096]⟩
abbrev S1x4096 : Shape := ⟨2, ![1, 4096]⟩
abbrev S256x512 : Shape := ⟨2, ![256, 512]⟩
abbrev S256x1024 : Shape := ⟨2, ![256, 1024]⟩
abbrev S256x4096 : Shape := ⟨2, ![256, 4096]⟩

abbrev nBuf : Space → Nat
  | .hbm => 41
  | .vmem => 17
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S1024, .f32⟩
  | .hbm, ⟨20, _⟩ => ⟨S512x1024, .f32⟩
  | .hbm, ⟨21, _⟩ => ⟨S512x1024, .f32⟩
  | .hbm, ⟨22, _⟩ => ⟨S512x1024, .f32⟩
  | .hbm, ⟨23, _⟩ => ⟨S512x1024, .f32⟩
  | .hbm, ⟨24, _⟩ => ⟨S512x4096, .f32⟩
  | .hbm, ⟨25, _⟩ => ⟨S512x4096, .bf16⟩
  | .hbm, ⟨26, _⟩ => ⟨S1024x1024, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S1024x4096, .f32⟩
  | .hbm, ⟨31, _⟩ => ⟨S1024x4096, .bf16⟩
  | .hbm, ⟨32, _⟩ => ⟨S1024, .f32⟩
  | .hbm, ⟨33, _⟩ => ⟨S1024, .f32⟩
  | .hbm, ⟨34, _⟩ => ⟨S1024, .f32⟩
  | .hbm, ⟨35, _⟩ => ⟨S1024, .f32⟩
  | .hbm, ⟨36, _⟩ => ⟨S4096, .f32⟩
  | .hbm, ⟨37, _⟩ => ⟨S1x4096, .f32⟩
  | .hbm, ⟨38, _⟩ => ⟨S16384x1024, .f32⟩
  | .hbm, ⟨39, _⟩ => ⟨S16384x1024, .f32⟩
  | .hbm, ⟨40, _⟩ => ⟨S16384x1024, .f32⟩
  | .local _ .vmem, ⟨0, _⟩ => ⟨S256x512, .f32⟩
  | .local _ .vmem, ⟨1, _⟩ => ⟨S256x512, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S512x4096, .bf16⟩
  | .local _ .vmem, ⟨9, _⟩ => ⟨S1024x4096, .bf16⟩
  | .local _ .vmem, ⟨10, _⟩ => ⟨S1x4096, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18_0 : Ref sig .tc := ⟨.hbm, 38, rfl⟩
abbrev main_v18_1 : Ref sig .tc := ⟨.hbm, 39, rfl⟩
abbrev main_v18_2 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S1024x512_S512x1024_1_0 : S1024x512.Transposes [1, 0] S512x1024
  concatenates_S512x1024_S512x1024_S512x1024_S512x1024_S512x4096_d1 : Shape.Concatenates [S512x1024, S512x1024, S512x1024, S512x1024] S512x4096 1
  bitsLt_bf16_f32 : FTy.bits .bf16 < FTy.bits .f32
  transposes_S1024x1024_S1024x1024_1_0 : S1024x1024.Transposes [1, 0] S1024x1024
  concatenates_S1024x1024_S1024x1024_S1024x1024_S1024x1024_S1024x4096_d1 : Shape.Concatenates [S1024x1024, S1024x1024, S1024x1024, S1024x1024] S1024x4096 1
  concatenates_S1024_S1024_S1024_S1024_S4096_d0 : Shape.Concatenates [S1024, S1024, S1024, S1024] S4096 0
  shapeCasts_S4096_S1x4096 : S4096.ShapeCasts S1x4096
  inb_S256x512_S256x512_0_0 : ∀ a, (![0, 0] : Fin 2 → Nat) a + S256x512.size a ≤ S256x512.size a
  h_S256x512 : 0 < S256x512.numel
  inb_S256x1024_S256x1024_0_0 : ∀ a, (![0, 0] : Fin 2 → Nat) a + S256x1024.size a ≤ S256x1024.size a
  h_S256x1024 : 0 < S256x1024.numel
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x512_S512x4096_S256x4096_1_0_0_1_n_n_wf : DotDims.WF S256x512 S512x4096 S256x4096 [1] [0] [0] [1] [] []
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S16384x512.size a
  hwx0_0 : ∀ i : grid0.Coords, EltTy.bits .f32 = 32 ∨ (Rect.block (s := S16384x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .f32 = 32 ∨ (Rect.block (s := S16384x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S16384x1024.size a
  hwx0_3 : ∀ i : grid0.Coords, EltTy.bits .f32 = 32 ∨ (Rect.block (s := S16384x1024) S256x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S512x4096.size a
  hwx0_4 : ∀ i : grid0.Coords, EltTy.bits .bf16 = 32 ∨ (Rect.block (s := S512x4096) S512x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x4096.size a ≤ S1024x4096.size a
  hwx0_5 : ∀ i : grid0.Coords, EltTy.bits .bf16 = 32 ∨ (Rect.block (s := S1024x4096) S1024x4096.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S16384x1024.size a
  hwx0_7 : ∀ i : grid0.Coords, EltTy.bits .f32 = 32 ∨ (Rect.block (s := S16384x1024) S256x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S16384x1024.size a
  hwx0_8 : ∀ i : grid0.Coords, EltTy.bits .f32 = 32 ∨ (Rect.block (s := S16384x1024) S256x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S16384x1024.size a
  hwx0_9 : ∀ i : grid0.Coords, EltTy.bits .f32 = 32 ∨ (Rect.block (s := S16384x1024) S256x1024.size (cc0_transform_9 i) (hinb0_9 i)).WholeWords (EltTy.packing .f32)

variable [Facts₀]

def dot_S256x512_S512x4096_S256x4096_1_0_0_1_n_n : DotDims S256x512 S512x4096 S256x4096 where
  lhsContracting := [1]
  rhsContracting := [0]
  lhsNonContracting := [0]
  rhsNonContracting := [1]
  lhsBatch := []
  rhsBatch := []
  wf := dot_S256x512_S512x4096_S256x4096_1_0_0_1_n_n_wf
def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1024x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18_0) S256x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v18_1) S256x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v18_2) S256x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16384x512 : Shape := ⟨2, ![16384, 512]⟩
abbrev S16384x1024 : Shape := ⟨2, ![16384, 1024]⟩
abbrev S1024x512 : Shape := ⟨2, ![1024, 512]⟩
abbrev S1024 : Shape := ⟨1, ![1024]⟩
abbrev S1024x1024 : Shape := ⟨2, ![1024, 1024]⟩
abbrev S1x1024x512 : Shape := ⟨3, ![1, 1024, 512]⟩
abbrev S4x1024x512 : Shape := ⟨3, ![4, 1024, 512]⟩
abbrev S1x1024x1024 : Shape := ⟨3, ![1, 1024, 1024]⟩
abbrev S4x1024x1024 : Shape := ⟨3, ![4, 1024, 1024]⟩
abbrev S1x1024 : Shape := ⟨2, ![1, 1024]⟩
abbrev S4x1024 : Shape := ⟨2, ![4, 1024]⟩
abbrev S4x1024x16384 : Shape := ⟨3, ![4, 1024, 16384]⟩
abbrev S4x16384x1024 : Shape := ⟨3, ![4, 16384, 1024]⟩
abbrev S4x1x1024 : Shape := ⟨3, ![4, 1, 1024]⟩
abbrev S1x16384x1024 : Shape := ⟨3, ![1, 16384, 1024]⟩
abbrev S_ : Shape := ⟨0, ![]⟩

abbrev nBuf : Space → Nat
  | .hbm => 80
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S1024, .f32⟩
  | .hbm, ⟨20, _⟩ => ⟨S1x1024x512, .f32⟩
  | .hbm, ⟨21, _⟩ => ⟨S1x1024x512, .f32⟩
  | .hbm, ⟨22, _⟩ => ⟨S1x1024x512, .f32⟩
  | .hbm, ⟨23, _⟩ => ⟨S1x1024x512, .f32⟩
  | .hbm, ⟨24, _⟩ => ⟨S4x1024x512, .f32⟩
  | .hbm, ⟨25, _⟩ => ⟨S1x1024x1024, .f32⟩
  | .hbm, ⟨26, _⟩ => ⟨S1x1024x1024, .f32⟩
  | .hbm, ⟨27, _⟩ => ⟨S1x1024x1024, .f32⟩
  | .hbm, ⟨28, _⟩ => ⟨S1x1024x1024, .f32⟩
  | .hbm, ⟨29, _⟩ => ⟨S4x1024x1024, .f32⟩
  | .hbm, ⟨30, _⟩ => ⟨S1024, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S4x1024, .f32⟩
  | .hbm, ⟨39, _⟩ => ⟨S4x1024x16384, .f32⟩
  | .hbm, ⟨40, _⟩ => ⟨S4x16384x1024, .f32⟩
  | .hbm, ⟨41, _⟩ => ⟨S4x1024x16384, .f32⟩
  | .hbm, ⟨42, _⟩ => ⟨S4x16384x1024, .f32⟩
  | .hbm, ⟨43, _⟩ => ⟨S4x16384x1024, .f32⟩
  | .hbm, ⟨44, _⟩ => ⟨S4x1x1024, .f32⟩
  | .hbm, ⟨45, _⟩ => ⟨S4x16384x1024, .f32⟩
  | .hbm, ⟨46, _⟩ => ⟨S4x16384x1024, .f32⟩
  | .hbm, ⟨47, _⟩ => ⟨S1x16384x1024, .f32⟩
  | .hbm, ⟨48, _⟩ => ⟨S16384x1024, .f32⟩
  | .hbm, ⟨49, _⟩ => ⟨S1x16384x1024, .f32⟩
  | .hbm, ⟨50, _⟩ => ⟨S16384x1024, .f32⟩
  | .hbm, ⟨51, _⟩ => ⟨S1x16384x1024, .f32⟩
  | .hbm, ⟨52, _⟩ => ⟨S16384x1024, .f32⟩
  | .hbm, ⟨53, _⟩ => ⟨S1x16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S_, .f32⟩
  | .hbm, ⟨60, _⟩ => ⟨S16384x1024, .f32⟩
  | .hbm, ⟨61, _⟩ => ⟨S16384x1024, .f32⟩
  | .hbm, ⟨62, _⟩ => ⟨S_, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S_, .f32⟩
  | .hbm, ⟨68, _⟩ => ⟨S16384x1024, .f32⟩
  | .hbm, ⟨69, _⟩ => ⟨S16384x1024, .f32⟩
  | .hbm, ⟨70, _⟩ => ⟨S_, .f32⟩
  | .hbm, ⟨71, _⟩ => ⟨S16384x1024, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S16384x1024, .f32⟩
  | .hbm, ⟨78, _⟩ => ⟨S16384x1024, .f32⟩
  | .hbm, ⟨79, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst : Ref sig .tc := ⟨.hbm, 59, rfl⟩
abbrev main_v39 : Ref sig .tc := ⟨.hbm, 60, rfl⟩
abbrev main_v40 : Ref sig .tc := ⟨.hbm, 61, rfl⟩
abbrev main_cst_0 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_1 : Ref sig .tc := ⟨.hbm, 67, rfl⟩
abbrev main_v45 : Ref sig .tc := ⟨.hbm, 68, rfl⟩
abbrev main_v46 : Ref sig .tc := ⟨.hbm, 69, rfl⟩
abbrev main_cst_2 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩

abbrev nD : Nat := 1
abbrev τ : Topo := Topo.v7x

variable {F : FTy → Type} [FloatOps F]

class Facts₀ : Prop where
  bcast_S1024x512_S1x1024x512_1_2 : S1024x512.BroadcastsInDim S1x1024x512 (![1, 2] : Fin 2 → Fin S1x1024x512.rank)
  concatenates_S1x1024x512_S1x1024x512_S1x1024x512_S1x1024x512_S4x1024x512_d0 : Shape.Concatenates [S1x1024x512, S1x1024x512, S1x1024x512, S1x1024x512] S4x1024x512 0
  bcast_S1024x1024_S1x1024x1024_1_2 : S1024x1024.BroadcastsInDim S1x1024x1024 (![1, 2] : Fin 2 → Fin S1x1024x1024.rank)
  concatenates_S1x1024x1024_S1x1024x1024_S1x1024x1024_S1x1024x1024_S4x1024x1024_d0 : Shape.Concatenates [S1x1024x1024, S1x1024x1024, S1x1024x1024, S1x1024x1024] S4x1024x1024 0
  bcast_S1024_S1x1024_1 : S1024.BroadcastsInDim S1x1024 (![1] : Fin 1 → Fin S1x1024.rank)
  concatenates_S1x1024_S1x1024_S1x1024_S1x1024_S4x1024_d0 : Shape.Concatenates [S1x1024, S1x1024, S1x1024, S1x1024] S4x1024 0
  transposes_S4x1024x16384_S4x16384x1024_0_2_1 : S4x1024x16384.Transposes [0, 2, 1] S4x16384x1024
  bcast_S4x1024_S4x1x1024_0_2 : S4x1024.BroadcastsInDim S4x1x1024 (![0, 2] : Fin 2 → Fin S4x1x1024.rank)
  bcast_S4x1x1024_S4x16384x1024_0_1_2 : S4x1x1024.BroadcastsInDim S4x16384x1024 (![0, 1, 2] : Fin 3 → Fin S4x16384x1024.rank)
  slices_S4x16384x1024_S1x16384x1024_0_0_0 : S4x16384x1024.Slices ![0, 0, 0] S1x16384x1024
  shapeCasts_S1x16384x1024_S16384x1024 : S1x16384x1024.ShapeCasts S16384x1024
  slices_S4x16384x1024_S1x16384x1024_1_0_0 : S4x16384x1024.Slices ![1, 0, 0] S1x16384x1024
  slices_S4x16384x1024_S1x16384x1024_2_0_0 : S4x16384x1024.Slices ![2, 0, 0] S1x16384x1024
  slices_S4x16384x1024_S1x16384x1024_3_0_0 : S4x16384x1024.Slices ![3, 0, 0] S1x16384x1024
  bcast_S_S16384x1024 : S_.BroadcastsInDim S16384x1024 (![] : Fin 0 → Fin S16384x1024.rank)
  dot_S4x1024x512_S16384x512_S4x1024x16384_2_1_01_0_n_n_wf : DotDims.WF S4x1024x512 S16384x512 S4x1024x16384 [2] [1] [0, 1] [0] [] []
  dot_S4x1024x1024_S16384x1024_S4x1024x16384_2_1_01_0_n_n_wf : DotDims.WF S4x1024x1024 S16384x1024 S4x1024x16384 [2] [1] [0, 1] [0] [] []

variable [Facts₀]

def dot_S4x1024x512_S16384x512_S4x1024x16384_2_1_01_0_n_n : DotDims S4x1024x512 S16384x512 S4x1024x16384 where
  lhsContracting := [2]
  rhsContracting := [1]
  lhsNonContracting := [0, 1]
  rhsNonContracting := [0]
  lhsBatch := []
  rhsBatch := []
  wf := dot_S4x1024x512_S16384x512_S4x1024x16384_2_1_01_0_n_n_wf
def dot_S4x1024x1024_S16384x1024_S4x1024x16384_2_1_01_0_n_n : DotDims S4x1024x1024 S16384x1024 S4x1024x16384 where
  lhsContracting := [2]
  rhsContracting := [1]
  lhsNonContracting := [0, 1]
  rhsNonContracting := [0]
  lhsBatch := []
  rhsBatch := []
  wf := dot_S4x1024x1024_S16384x1024_S4x1024x16384_2_1_01_0_n_n_wf

class Facts : Prop extends Facts₀ where

variable [Facts]
-- ==== Proof.KernelEntry.lean ====
/-
  The state in which `Kernel`'s one region is entered.

  Before the region, @main runs eighteen host operations: the four input-projection weights are transposed and laid
  side by side along the columns (a 512 x 4096 matrix whose column g*1024 + h is row h of gate g's weight), the four
  recurrent weights likewise (1024 x 4096), and the four pairs of bias vectors are added and laid end to end as one
  row of 4096. Each of these operations writes one fresh result buffer and nothing else, so every buffer that is not
  one of the eighteen results -- every argument array in particular -- is found by the region exactly as launched.

  `atEntry` is the contents of each buffer at that moment; `blockAt` is the block of a window's array that grid
  point `t` sees.
-/
import proofs.«142605_j28226525070218_1_alg».proof.Proof.Gen.Kernel.Launch
import proofs.«142605_j28226525070218_1_alg».proof.Proof.Gen.Kernel.Skeleton
import proofs.«142605_j28226525070218_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Entry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-- Core `c`'s TensorCore buffers when the region is entered: the launch contents carried through the eighteen
    host operations. -/
abbrev atEntry (c : Dev nD) (b : Ref sig .tc) : Buf (Elt F) ((c : Thread nD τ).loc b) :=
  StableHlo.after hostOps0 (fun b => m (c, b)) b

/-- None of the host operations allocates: each writes a buffer that exists from the start. -/
theorem hostOps_fresh : (hostOps0 : List (HloOp τ sig (Elt F))).Forall fun op => op.fresh = ∅ := by
  simp only [List.Forall]; repeat' constructor

/-- @main is its host operations followed by the region, so the region starts from `atEntry`. -/
theorem main_upto_region (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub hostOps_fresh main_chain

/-- The eighteen buffers the host operations write. -/
def hostResults : List (Ref sig .tc) :=
  [main_v0, main_v1, main_v2, main_v3, main_v4, main_v5, main_v6, main_v7, main_v8, main_v9, main_v10, main_v11,
   main_v12, main_v13, main_v14, main_v15, main_v16, main_v17]

/-- A buffer that is none of the eighteen results is entered as launched: no host operation writes it. -/
theorem atEntry_of_unwritten (c : Dev nD) (b : Ref sig .tc) (hb : ∀ y ∈ hostResults, b ≠ y) :
    atEntry m c b = m ((c : Thread nD τ).loc b) :=
  StableHlo.after_of_forall_not_mem (b := Proc.devRef .tc b) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (hb _ (by simp [hostResults]))))

/-- Window `w`'s block at grid point `t`, read off its array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (atEntry m c (Pipeline.arrRef spec0 w))

/-! ## Each input window's buffer holds its block when the body starts

An input window's current staging buffer holds its block at every point -- either the point fetches it, or the
block index has not moved since the point that did -- for any bookkeeping whose array is the entry contents and whose
body leaves the block in place. The four row windows are fetched at every point; the packed weights and the bias row
are fetched at the first point only and stay resident. -/

/-- The 256 rows of x. -/
theorem staged_0 {c : Dev nD} (dat : Dat τ (Elt F) Unit ℕ (UR sig nD τ) ℕ cfg0 c)
    (hA : dat.A 0 = atEntry m c (Pipeline.arrRef spec0 0)) (hafter : ∀ t, dat.after 0 t = blockAt m c 0 t)
    (t : Fin cfg0.N) (d) : dat.before 0 t d = blockAt m c 0 t :=
  (dat.before_in_eq_fetched 0 rfl (fun _ => rfl) (fun _ _ _ => rfl)
    (fun t => by rw [hafter]; unfold Dat.blockOf blockAt; rw [hA]; try rfl) t d).trans
    (by unfold Dat.fetched Dat.blockOf blockAt; rw [hA]; try rfl)

/-- The 256 rows of the previous hidden state. -/
theorem staged_1 {c : Dev nD} (dat : Dat τ (Elt F) Unit ℕ (UR sig nD τ) ℕ cfg0 c)
    (hA : dat.A 1 = atEntry m c (Pipeline.arrRef spec0 1)) (hafter : ∀ t, dat.after 1 t = blockAt m c 1 t)
    (t : Fin cfg0.N) (d) : dat.before 1 t d = blockAt m c 1 t :=
  (dat.before_in_eq_fetched 1 rfl (fun _ => rfl) (fun _ _ _ => rfl)
    (fun t => by rw [hafter]; unfold Dat.blockOf blockAt; rw [hA]; try rfl) t d).trans
    (by unfold Dat.fetched Dat.blockOf blockAt; rw [hA]; try rfl)

/-- The 256 rows of the previous cell state. -/
theorem staged_2 {c : Dev nD} (dat : Dat τ (Elt F) Unit ℕ (UR sig nD τ) ℕ cfg0 c)
    (hA : dat.A 2 = atEntry m c (Pipeline.arrRef spec0 2)) (hafter : ∀ t, dat.after 2 t = blockAt m c 2 t)
    (t : Fin cfg0.N) (d) : dat.before 2 t d = blockAt m c 2 t :=
  (dat.before_in_eq_fetched 2 rfl (fun _ => rfl) (fun _ _ _ => rfl)
    (fun t => by rw [hafter]; unfold Dat.blockOf blockAt; rw [hA]; try rfl) t d).trans
    (by unfold Dat.fetched Dat.blockOf blockAt; rw [hA]; try rfl)

/-- The 256 rows of the previous normaliser. -/
theorem staged_3 {c : Dev nD} (dat : Dat τ (Elt F) Unit ℕ (UR sig nD τ) ℕ cfg0 c)
    (hA : dat.A 3 = atEntry m c (Pipeline.arrRef spec0 3)) (hafter : ∀ t, dat.after 3 t = blockAt m c 3 t)
    (t : Fin cfg0.N) (d) : dat.before 3 t d = blockAt m c 3 t :=
  (dat.before_in_eq_fetched 3 rfl (fun _ => rfl) (fun _ _ _ => rfl)
    (fun t => by rw [hafter]; unfold Dat.blockOf blockAt; rw [hA]; try rfl) t d).trans
    (by unfold Dat.fetched Dat.blockOf blockAt; rw [hA]; try rfl)

/-- The packed input weight, resident. -/
theorem staged_4 {c : Dev nD} (dat : Dat τ (Elt F) Unit ℕ (UR sig nD τ) ℕ cfg0 c)
    (hA : dat.A 4 = atEntry m c (Pipeline.arrRef spec0 4)) (hafter : ∀ t, dat.after 4 t = blockAt m c 4 t)
    (t : Fin cfg0.N) (d) : dat.before 4 t d = blockAt m c 4 t :=
  (dat.before_in_eq_fetched 4 rfl (fun _ => rfl) (fun _ _ _ => rfl)
    (fun t => by rw [hafter]; unfold Dat.blockOf blockAt; rw [hA]; try rfl) t d).trans
    (by unfold Dat.fetched Dat.blockOf blockAt; rw [hA]; try rfl)

/-- The packed recurrent weight, resident. -/
theorem staged_5 {c : Dev nD} (dat : Dat τ (Elt F) Unit ℕ (UR sig nD τ) ℕ cfg0 c)
    (hA : dat.A 5 = atEntry m c (Pipeline.arrRef spec0 5)) (hafter : ∀ t, dat.after 5 t = blockAt m c 5 t)
    (t : Fin cfg0.N) (d) : dat.before 5 t d = blockAt m c 5 t :=
  (dat.before_in_eq_fetched 5 rfl (fun _ => rfl) (fun _ _ _ => rfl)
    (fun t => by rw [hafter]; unfold Dat.blockOf blockAt; rw [hA]; try rfl) t d).trans
    (by unfold Dat.fetched Dat.blockOf blockAt; rw [hA]; try rfl)

/-- The packed bias row, resident. -/
theorem staged_6 {c : Dev nD} (dat : Dat τ (Elt F) Unit ℕ (UR sig nD τ) ℕ cfg0 c)
    (hA : dat.A 6 = atEntry m c (Pipeline.arrRef spec0 6)) (hafter : ∀ t, dat.after 6 t = blockAt m c 6 t)
    (t : Fin cfg0.N) (d) : dat.before 6 t d = blockAt m c 6 t :=
  (dat.before_in_eq_fetched 6 rfl (fun _ => rfl) (fun _ _ _ => rfl)
    (fun t => by rw [hafter]; unfold Dat.blockOf blockAt; rw [hA]; try rfl) t d).trans
    (by unfold Dat.fetched Dat.blockOf blockAt; rw [hA]; try rfl)

end Cert.Kernel.Entry

end
-- ==== Proof.KernelBody.lean ====
/-
  What one grid point of `Kernel`'s body does to its ten staging buffers.

  The point is handed a block of 256 rows of x (256 x 512), of h_prev, c_prev and n_prev (256 x 1024 each), the whole
  packed input weight (512 x 4096), the whole packed recurrent weight (1024 x 4096) and the packed bias row (1 x 4096).
  It forms the 256 x 4096 pre-activation  x W + h R + b,  cuts it into four 256 x 1024 gates  z = tanh, i = exp,
  f = logistic, o = logistic,  and stores three whole 256 x 1024 blocks:

      cell    = f * c_prev + i * z
      norm    = f * n_prev + i
      hidden  = o * (cell / norm)

  The seven inputs are left as they were. Each output buffer is overwritten in full by one store, so what it held
  before (the body loads it once, and never uses the value) does not matter.
-/
import proofs.«142605_j28226525070218_1_alg».proof.Proof.KernelEntry

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The rectangles the body reads and writes: each is a whole buffer -/

abbrev allX : Rect S256x512 := Rect.unit (s := S256x512) ![0, 0] S256x512.size inb_S256x512_S256x512_0_0
abbrev allRows : Rect S256x1024 := Rect.unit (s := S256x1024) ![0, 0] S256x1024.size inb_S256x1024_S256x1024_0_0
abbrev allW : Rect S512x4096 := Rect.unit (s := S512x4096) ![0, 0] S512x4096.size inb_S512x4096_S512x4096_0_0
abbrev allR : Rect S1024x4096 := Rect.unit (s := S1024x4096) ![0, 0] S1024x4096.size inb_S1024x4096_S1024x4096_0_0
abbrev allB : Rect S1x4096 := Rect.unit (s := S1x4096) ![0, 0] S1x4096.size inb_S1x4096_S1x4096_0_0

/-! ## What the body leaves in each output buffer -/

/-- The new cell state block: `f * c_prev + i * z` of the point's blocks. -/
def cellBlock (x : Vec F S256x512 .f32) (h cp : Vec F S256x1024 .f32) (w : Vec F S512x4096 .bf16)
    (r : Vec F S1024x4096 .bf16) (b : Vec F S1x4096 .f32) : Vec F S256x1024 .f32 :=
  View.canon [⟨allRows, k0_pay4 (View.ld x allX) (View.ld h allRows) (View.ld w allW) (View.ld r allR) (View.ld b allB)
    (View.ld cp allRows)⟩]

/-- The new normaliser block: `f * n_prev + i`. -/
def normBlock (x : Vec F S256x512 .f32) (h np : Vec F S256x1024 .f32) (w : Vec F S512x4096 .bf16)
    (r : Vec F S1024x4096 .bf16) (b : Vec F S1x4096 .f32) : Vec F S256x1024 .f32 :=
  View.canon [⟨allRows, k0_pay5 (View.ld x allX) (View.ld h allRows) (View.ld w allW) (View.ld r allR) (View.ld b allB)
    (View.ld np allRows)⟩]

/-- The new hidden state block: `o * (cell / norm)`. -/
def hiddenBlock (x : Vec F S256x512 .f32) (h cp np : Vec F S256x1024 .f32) (w : Vec F S512x4096 .bf16)
    (r : Vec F S1024x4096 .bf16) (b : Vec F S1x4096 .f32) : Vec F S256x1024 .f32 :=
  View.canon [⟨allRows, k0_pay6 (View.ld x allX) (View.ld h allRows) (View.ld w allW) (View.ld r allR) (View.ld b allB)
    (View.ld cp allRows) (View.ld np allRows)⟩]

/-- One whole-buffer store covers the buffer. -/
theorem allRows_covers (p : Vec F S256x1024 .f32) (y : S256x1024.Idx) :
    ∃ pc ∈ ([⟨allRows, p⟩] : List (View.Piece (Elt F) S256x1024 .f32)), y ∈ pc.1.set :=
  View.cover_of_tiled [⟨allRows, p⟩] S256x1024.size (by rfl) y

/-! ## The body's triple -/

set_option maxHeartbeats 2000000 in
/-- The body on whole staging buffers, the seven inputs at known contents and the three outputs at anything, runs
    without a fault to a state holding the inputs unchanged and the outputs at the cell, normaliser and hidden
    blocks of those inputs. -/
theorem point_triple (c : Dev nD) (E : Set ℕ) (i : grid0.Coords)
    (a1 : Memref sig .tc .vmem S256x512 .f32) (h1 : a1.IsWhole)
    (a2 : Memref sig .tc .vmem S256x1024 .f32) (h2 : a2.IsWhole)
    (a3 : Memref sig .tc .vmem S256x1024 .f32) (h3 : a3.IsWhole)
    (a4 : Memref sig .tc .vmem S256x1024 .f32) (h4 : a4.IsWhole)
    (a5 : Memref sig .tc .vmem S512x4096 .bf16) (h5 : a5.IsWhole)
    (a6 : Memref sig .tc .vmem S1024x4096 .bf16) (h6 : a6.IsWhole)
    (a7 : Memref sig .tc .vmem S1x4096 .f32) (h7 : a7.IsWhole)
    (a8 : Memref sig .tc .vmem S256x1024 .f32) (h8 : a8.IsWhole)
    (a9 : Memref sig .tc .vmem S256x1024 .f32) (h9 : a9.IsWhole)
    (a10 : Memref sig .tc .vmem S256x1024 .f32) (h10 : a10.IsWhole)
    (x : Vec F S256x512 .f32) (h cp np : Vec F S256x1024 .f32) (w : Vec F S512x4096 .bf16)
    (r : Vec F S1024x4096 .bf16) (b : Vec F S1x4096 .f32) (K : PUnit → sProp 𝕄) :
    iprop(owns (c : Thread nD τ) a1 fullShare x ∗ owns (c : Thread nD τ) a2 fullShare h
        ∗ owns (c : Thread nD τ) a3 fullShare cp ∗ owns (c : Thread nD τ) a4 fullShare np
        ∗ owns (c : Thread nD τ) a5 fullShare w ∗ owns (c : Thread nD τ) a6 fullShare r
        ∗ owns (c : Thread nD τ) a7 fullShare b
        ∗ (∃ d, owns (c : Thread nD τ) a8 fullShare d) ∗ (∃ d, owns (c : Thread nD τ) a9 fullShare d)
        ∗ (∃ d, owns (c : Thread nD τ) a10 fullShare d)
        ∗ (iprop(owns (c : Thread nD τ) a1 fullShare x ∗ owns (c : Thread nD τ) a2 fullShare h
            ∗ owns (c : Thread nD τ) a3 fullShare cp ∗ owns (c : Thread nD τ) a4 fullShare np
            ∗ owns (c : Thread nD τ) a5 fullShare w ∗ owns (c : Thread nD τ) a6 fullShare r
            ∗ owns (c : Thread nD τ) a7 fullShare b
            ∗ owns (c : Thread nD τ) a8 fullShare (cellBlock x h cp w r b)
            ∗ owns (c : Thread nD τ) a9 fullShare (normBlock x h np w r b)
            ∗ owns (c : Thread nD τ) a10 fullShare (hiddenBlock x h cp np w r b)) -∗ K ⟨⟩))
      ⊢ wp frame (wpE (defs₀ (F := F)) Variants.none c none) E
          (cc0__slstm_kernel i a1 h1 a2 h2 a3 h3 a4 h4 a5 h5 a6 h6 a7 h7 a8 h8 a9 h9 a10 h10) K := by
  simp only [cc0__slstm_kernel_eq_skeleton]; unfold cc0__slstm_kernel_skel
  simp only [k0_part1_eq_skeleton]; unfold k0_part1_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩,
    ⟨%f7, %e7, H7⟩, ⟨%d8, %f8, -, H8⟩, ⟨%d9, %f9, -, H9⟩, ⟨%d10, %f10, -, H10⟩, Hk⟩
  subst e1 e2 e3 e4 e5 e6 e7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (allRows_covers _)
  isplitl [H9]
  · iexists _; isplitr
    swap; · iexact H9
    ipureintro
    exact View.read_writes_eq_canon _ _ _ (allRows_covers _)
  iexists _; isplitr
  swap; · iexact H10
  ipureintro
  exact View.read_writes_eq_canon _ _ _ (allRows_covers _)

end Cert.Kernel.Body

end
-- ==== Proof.KernelRun.lean ====
/-
  The whole run of `Kernel`: @main's host operations, then the region over its 64 grid points, each point
  running the body on its blocks.

  The bookkeeping is: every window's array is what the region finds at entry; after the body at point `t` each of
  the seven input buffers still holds its block, and the three output buffers hold the cell, normaliser and hidden
  blocks computed from the point's input blocks. Point `t` sees rows 256 t .. 256 t + 255 of x, h_prev, c_prev and
  n_prev, and the whole of the packed weights and bias (those three are fetched once, at the first point, and stay).
  From this the library's launch theorem gives the run: it terminates, nothing faults, the output arrays hold what
  the points wrote back, and every other buffer is as the region found it -- in particular every argument array is
  unchanged, which is the frame claim.
-/
import proofs.«142605_j28226525070218_1_alg».proof.Proof.KernelBody

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Entry Cert.Kernel.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the region finds them; after the body at point `t` each input buffer at its block
    and each output buffer at its block of results; nothing else is owned or owed. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => cellBlock (blockAt m c 0 t) (blockAt m c 1 t) (blockAt m c 2 t) (blockAt m c 4 t) (blockAt m c 5 t) (blockAt m c 6 t)
    | ⟨8, _⟩ => normBlock (blockAt m c 0 t) (blockAt m c 1 t) (blockAt m c 3 t) (blockAt m c 4 t) (blockAt m c 5 t) (blockAt m c 6 t)
    | ⟨9, _⟩ => hiddenBlock (blockAt m c 0 t) (blockAt m c 1 t) (blockAt m c 2 t) (blockAt m c 3 t) (blockAt m c 4 t) (blockAt m c 5 t) (blockAt m c 6 t)
  Φ _ := Pipeline.ΦA spec0 c
  q _ := fullShare
  owed _ := 0

theorem A_eq (c : Dev nD) (w : Fin cfg0.W) : (dats m 0 c).A w = atEntry m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = blockAt m c 4 t := by dsimp only [dats]
theorem after_5 (c : Dev nD) (t : Fin cfg0.N) : (dats m 0 c).after 5 t = blockAt m c 5 t := by dsimp only [dats]
theorem after_6 (c : Dev nD) (t : Fin cfg0.N) : (dats m 0 c).after 6 t = blockAt m c 6 t := by dsimp only [dats]
theorem after_7 (c : Dev nD) (t : Fin cfg0.N) : (dats m 0 c).after 7 t
    = cellBlock (blockAt m c 0 t) (blockAt m c 1 t) (blockAt m c 2 t) (blockAt m c 4 t) (blockAt m c 5 t) (blockAt m c 6 t) := by
  dsimp only [dats]
theorem after_8 (c : Dev nD) (t : Fin cfg0.N) : (dats m 0 c).after 8 t
    = normBlock (blockAt m c 0 t) (blockAt m c 1 t) (blockAt m c 3 t) (blockAt m c 4 t) (blockAt m c 5 t) (blockAt m c 6 t) := by
  dsimp only [dats]
theorem after_9 (c : Dev nD) (t : Fin cfg0.N) : (dats m 0 c).after 9 t
    = hiddenBlock (blockAt m c 0 t) (blockAt m c 1 t) (blockAt m c 2 t) (blockAt m c 3 t) (blockAt m c 4 t) (blockAt m c 5 t) (blockAt m c 6 t) := by
  dsimp only [dats]

/-- Each input buffer holds its block when the body starts, at every point. -/
theorem before_0 (c : Dev nD) (t : Fin cfg0.N) (d) : (dats m 0 c).before 0 t d = blockAt m c 0 t :=
  staged_0 m (dats m 0 c) (A_eq m c 0) (after_0 m c) t d
theorem before_1 (c : Dev nD) (t : Fin cfg0.N) (d) : (dats m 0 c).before 1 t d = blockAt m c 1 t :=
  staged_1 m (dats m 0 c) (A_eq m c 1) (after_1 m c) t d
theorem before_2 (c : Dev nD) (t : Fin cfg0.N) (d) : (dats m 0 c).before 2 t d = blockAt m c 2 t :=
  staged_2 m (dats m 0 c) (A_eq m c 2) (after_2 m c) t d
theorem before_3 (c : Dev nD) (t : Fin cfg0.N) (d) : (dats m 0 c).before 3 t d = blockAt m c 3 t :=
  staged_3 m (dats m 0 c) (A_eq m c 3) (after_3 m c) t d
theorem before_4 (c : Dev nD) (t : Fin cfg0.N) (d) : (dats m 0 c).before 4 t d = blockAt m c 4 t :=
  staged_4 m (dats m 0 c) (A_eq m c 4) (after_4 m c) t d
theorem before_5 (c : Dev nD) (t : Fin cfg0.N) (d) : (dats m 0 c).before 5 t d = blockAt m c 5 t :=
  staged_5 m (dats m 0 c) (A_eq m c 5) (after_5 m c) t d
theorem before_6 (c : Dev nD) (t : Fin cfg0.N) (d) : (dats m 0 c).before 6 t d = blockAt m c 6 t :=
  staged_6 m (dats m 0 c) (A_eq m c 6) (after_6 m c) t d

/-! ## The body at a grid point -/

/-- What the body is called with at point `t`: the ten current staging buffers, window by window. -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: its input buffers hold their blocks, so the body's triple applies; whatever else the
    core owns passes through untouched. -/
theorem point_sound (c : Dev nD) (t : Fin cfg0.N) :
    pointPre m c t ⊢ wp frame (wpE (defs₀ (F := F)) Variants.none c none) Set.univ (bodyAt0 t) (fun _ => pointPost m c t) := by
  unfold pointPre pointPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (point_triple c Set.univ _ _ _ _ _ _ _ _ _ _ _ _ _ _ _ _ _ _ _ _ _
    (blockAt m c 0 t) (blockAt m c 1 t) (blockAt m c 2 t) (blockAt m c 3 t) (blockAt m c 4 t) (blockAt m c 5 t) (blockAt m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The launch theorem's obligation, at every point. -/
theorem every_point (c : Dev nD) : BodyObligation (dats (F := F) m 0 c) (defs₀ (F := F)) Variants.none () Set.univ := fun t => by
  rw [bigSep_W0, bigSep_W0]
  exact point_sound m c t

/-! ## The run -/

set_option backward.isDefEq.respectTransparency.types false in
/-- Every weakly fair execution of @main terminates without a fault; at the end each window's array holds what the
    bookkeeping computes, and every other unscoped buffer what the region found. -/
theorem run_main : θ_run defs (onTc (τ := τ) (main (F := F))) (s₀ m ρ) (Pipeline.FramePost cfgs (dats m) 0 (atEntry m)) :=
  Pipeline.θ_run_frame cfgs (dats m) (0 : Fin 1) launch0 defs₀ Variants.none m ρ main
    (hbody := fun c => (every_point m c).loose) (hshare := fun c => (dats m 0 c).share_full fun _ => rfl)
    (howed := fun _ _ => rfl) (V := atEntry m) (hmain := main_upto_region m Variants.none) (hA := A_eq m) (hΦ := fun _ _ => rfl)

/-! ## Reading the argument arrays off the run's final state -/

/-- An array that an INPUT window stages ends as the region found it. -/
theorem input_array_kept {r : PUnit × MemSt nD τ sig (Elt F)} (h : Pipeline.FramePost cfgs (dats m) 0 (atEntry m) r)
    (c : Dev nD) (w : Fin cfg0.W) (hin : (cfg0.win w).isOut = false) :
    r.2.mem (((cfgs 0).spec w).arr.view.loc (c.tc : Thread nD τ)) = atEntry m c (Pipeline.arrRef spec0 w) :=
  ((h c).1 w).trans (((dats m 0 c).arrAt_in w hin _).trans (A_eq m c w))

/-- A buffer that no window stages ends as the region found it. -/
theorem other_buffer_kept {r : PUnit × MemSt nD τ sig (Elt F)} (h : Pipeline.FramePost cfgs (dats m) 0 (atEntry m) r)
    (c : Dev nD) (b : Ref sig .tc) (hs : b.isScoped = false) (ha : ∀ w, (spec0 w).arr.view.ref ≠ b) :
    r.2.mem ((c.tc : Thread nD τ).loc b) = atEntry m c b :=
  (h c).2 b (Pipeline.mem_restRefs_of b hs ha)

/-- Buffer `b` ends the run holding what it was launched with. -/
abbrev Unchanged (r : PUnit × MemSt nD τ sig (Elt F)) (c : Dev nD) (b : Ref sig .tc) : Prop :=
  r.2.mem ((c.tc : Thread nD τ).loc b) = m ((c.tc : Thread nD τ).loc b)

/-- The twenty argument arrays end unchanged: x, c_prev, n_prev and h_prev are staged by input windows, which are never
    written back; the sixteen weights and biases are staged by no window; and no host operation writes an argument. -/
theorem args_kept {r : PUnit × MemSt nD τ sig (Elt F)} (h : Pipeline.FramePost cfgs (dats m) 0 (atEntry m) r) (c : Dev nD) :
    Unchanged m r c main_arg0
    ∧ Unchanged m r c main_arg1
    ∧ Unchanged m r c main_arg2
    ∧ Unchanged m r c main_arg3
    ∧ Unchanged m r c main_arg4
    ∧ Unchanged m r c main_arg5
    ∧ Unchanged m r c main_arg6
    ∧ Unchanged m r c main_arg7
    ∧ Unchanged m r c main_arg8
    ∧ Unchanged m r c main_arg9
    ∧ Unchanged m r c main_arg10
    ∧ Unchanged m r c main_arg11
    ∧ Unchanged m r c main_arg12
    ∧ Unchanged m r c main_arg13
    ∧ Unchanged m r c main_arg14
    ∧ Unchanged m r c main_arg15
    ∧ Unchanged m r c main_arg16
    ∧ Unchanged m r c main_arg17
    ∧ Unchanged m r c main_arg18
    ∧ Unchanged m r c main_arg19 :=
  ⟨(input_array_kept m h c 0 rfl).trans (atEntry_of_unwritten m c main_arg0 (by decide)),
   (input_array_kept m h c 2 rfl).trans (atEntry_of_unwritten m c main_arg1 (by decide)),
   (input_array_kept m h c 3 rfl).trans (atEntry_of_unwritten m c main_arg2 (by decide)),
   (input_array_kept m h c 1 rfl).trans (atEntry_of_unwritten m c main_arg3 (by decide)),
   (other_buffer_kept m h c main_arg4 (by decide) (by decide)).trans (atEntry_of_unwritten m c main_arg4 (by decide)),
   (other_buffer_kept m h c main_arg5 (by decide) (by decide)).trans (atEntry_of_unwritten m c main_arg5 (by decide)),
   (other_buffer_kept m h c main_arg6 (by decide) (by decide)).trans (atEntry_of_unwritten m c main_arg6 (by decide)),
   (other_buffer_kept m h c main_arg7 (by decide) (by decide)).trans (atEntry_of_unwritten m c main_arg7 (by decide)),
   (other_buffer_kept m h c main_arg8 (by decide) (by decide)).trans (atEntry_of_unwritten m c main_arg8 (by decide)),
   (other_buffer_kept m h c main_arg9 (by decide) (by decide)).trans (atEntry_of_unwritten m c main_arg9 (by decide)),
   (other_buffer_kept m h c main_arg10 (by decide) (by decide)).trans (atEntry_of_unwritten m c main_arg10 (by decide)),
   (other_buffer_kept m h c main_arg11 (by decide) (by decide)).trans (atEntry_of_unwritten m c main_arg11 (by decide)),
   (other_buffer_kept m h c main_arg12 (by decide) (by decide)).trans (atEntry_of_unwritten m c main_arg12 (by decide)),
   (other_buffer_kept m h c main_arg13 (by decide) (by decide)).trans (atEntry_of_unwritten m c main_arg13 (by decide)),
   (other_buffer_kept m h c main_arg14 (by decide) (by decide)).trans (atEntry_of_unwritten m c main_arg14 (by decide)),
   (other_buffer_kept m h c main_arg15 (by decide) (by decide)).trans (atEntry_of_unwritten m c main_arg15 (by decide)),
   (other_buffer_kept m h c main_arg16 (by decide) (by decide)).trans (atEntry_of_unwritten m c main_arg16 (by decide)),
   (other_buffer_kept m h c main_arg17 (by decide) (by decide)).trans (atEntry_of_unwritten m c main_arg17 (by decide)),
   (other_buffer_kept m h c main_arg18 (by decide) (by decide)).trans (atEntry_of_unwritten m c main_arg18 (by decide)),
   (other_buffer_kept m h c main_arg19 (by decide) (by decide)).trans (atEntry_of_unwritten m c main_arg19 (by decide))⟩

end Cert.Kernel.Run

end
-- ==== Proof.KernelIdealEntry.lean ====
/-
  The state in which `KernelIdeal`'s one region is entered.

  Before the region, @main runs eighteen host operations: the four input-projection weights are transposed and laid
  side by side along the columns (a 512 x 4096 matrix whose column g*1024 + h is row h of gate g's weight), the four
  recurrent weights likewise (1024 x 4096), and the four pairs of bias vectors are added and laid end to end as one
  row of 4096. Each of these operations writes one fresh result buffer and nothing else, so every buffer that is not
  one of the eighteen results -- every argument array in particular -- is found by the region exactly as launched.

  `atEntry` is the contents of each buffer at that moment; `blockAt` is the block of a window's array that grid
  point `t` sees.
-/
import proofs.«142605_j28226525070218_1_alg».proof.Proof.Gen.KernelIdeal.Launch
import proofs.«142605_j28226525070218_1_alg».proof.Proof.Gen.KernelIdeal.Skeleton
import proofs.«142605_j28226525070218_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Entry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-- Core `c`'s TensorCore buffers when the region is entered: the launch contents carried through the eighteen
    host operations. -/
abbrev atEntry (c : Dev nD) (b : Ref sig .tc) : Buf (Elt F) ((c : Thread nD τ).loc b) :=
  StableHlo.after hostOps0 (fun b => m (c, b)) b

/-- None of the host operations allocates: each writes a buffer that exists from the start. -/
theorem hostOps_fresh : (hostOps0 : List (HloOp τ sig (Elt F))).Forall fun op => op.fresh = ∅ := by
  simp only [List.Forall]; repeat' constructor

/-- @main is its host operations followed by the region, so the region starts from `atEntry`. -/
theorem main_upto_region (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub hostOps_fresh main_chain

/-- The eighteen buffers the host operations write. -/
def hostResults : List (Ref sig .tc) :=
  [main_v0, main_v1, main_v2, main_v3, main_v4, main_v5, main_v6, main_v7, main_v8, main_v9, main_v10, main_v11,
   main_v12, main_v13, main_v14, main_v15, main_v16, main_v17]

/-- A buffer that is none of the eighteen results is entered as launched: no host operation writes it. -/
theorem atEntry_of_unwritten (c : Dev nD) (b : Ref sig .tc) (hb : ∀ y ∈ hostResults, b ≠ y) :
    atEntry m c b = m ((c : Thread nD τ).loc b) :=
  StableHlo.after_of_forall_not_mem (b := Proc.devRef .tc b) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (hb _ (by simp [hostResults]))))

/-- Window `w`'s block at grid point `t`, read off its array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (atEntry m c (Pipeline.arrRef spec0 w))

/-! ## Each input window's buffer holds its block when the body starts

An input window's current staging buffer holds its block at every point -- either the point fetches it, or the
block index has not moved since the point that did -- for any bookkeeping whose array is the entry contents and whose
body leaves the block in place. The four row windows are fetched at every point; the packed weights and the bias row
are fetched at the first point only and stay resident. -/

/-- The 256 rows of x. -/
theorem staged_0 {c : Dev nD} (dat : Dat τ (Elt F) Unit ℕ (UR sig nD τ) ℕ cfg0 c)
    (hA : dat.A 0 = atEntry m c (Pipeline.arrRef spec0 0)) (hafter : ∀ t, dat.after 0 t = blockAt m c 0 t)
    (t : Fin cfg0.N) (d) : dat.before 0 t d = blockAt m c 0 t :=
  (dat.before_in_eq_fetched 0 rfl (fun _ => rfl) (fun _ _ _ => rfl)
    (fun t => by rw [hafter]; unfold Dat.blockOf blockAt; rw [hA]; try rfl) t d).trans
    (by unfold Dat.fetched Dat.blockOf blockAt; rw [hA]; try rfl)

/-- The 256 rows of the previous hidden state. -/
theorem staged_1 {c : Dev nD} (dat : Dat τ (Elt F) Unit ℕ (UR sig nD τ) ℕ cfg0 c)
    (hA : dat.A 1 = atEntry m c (Pipeline.arrRef spec0 1)) (hafter : ∀ t, dat.after 1 t = blockAt m c 1 t)
    (t : Fin cfg0.N) (d) : dat.before 1 t d = blockAt m c 1 t :=
  (dat.before_in_eq_fetched 1 rfl (fun _ => rfl) (fun _ _ _ => rfl)
    (fun t => by rw [hafter]; unfold Dat.blockOf blockAt; rw [hA]; try rfl) t d).trans
    (by unfold Dat.fetched Dat.blockOf blockAt; rw [hA]; try rfl)

/-- The 256 rows of the previous cell state. -/
theorem staged_2 {c : Dev nD} (dat : Dat τ (Elt F) Unit ℕ (UR sig nD τ) ℕ cfg0 c)
    (hA : dat.A 2 = atEntry m c (Pipeline.arrRef spec0 2)) (hafter : ∀ t, dat.after 2 t = blockAt m c 2 t)
    (t : Fin cfg0.N) (d) : dat.before 2 t d = blockAt m c 2 t :=
  (dat.before_in_eq_fetched 2 rfl (fun _ => rfl) (fun _ _ _ => rfl)
    (fun t => by rw [hafter]; unfold Dat.blockOf blockAt; rw [hA]; try rfl) t d).trans
    (by unfold Dat.fetched Dat.blockOf blockAt; rw [hA]; try rfl)

/-- The 256 rows of the previous normaliser. -/
theorem staged_3 {c : Dev nD} (dat : Dat τ (Elt F) Unit ℕ (UR sig nD τ) ℕ cfg0 c)
    (hA : dat.A 3 = atEntry m c (Pipeline.arrRef spec0 3)) (hafter : ∀ t, dat.after 3 t = blockAt m c 3 t)
    (t : Fin cfg0.N) (d) : dat.before 3 t d = blockAt m c 3 t :=
  (dat.before_in_eq_fetched 3 rfl (fun _ => rfl) (fun _ _ _ => rfl)
    (fun t => by rw [hafter]; unfold Dat.blockOf blockAt; rw [hA]; try rfl) t d).trans
    (by unfold Dat.fetched Dat.blockOf blockAt; rw [hA]; try rfl)

/-- The packed input weight, resident. -/
theorem staged_4 {c : Dev nD} (dat : Dat τ (Elt F) Unit ℕ (UR sig nD τ) ℕ cfg0 c)
    (hA : dat.A 4 = atEntry m c (Pipeline.arrRef spec0 4)) (hafter : ∀ t, dat.after 4 t = blockAt m c 4 t)
    (t : Fin cfg0.N) (d) : dat.before 4 t d = blockAt m c 4 t :=
  (dat.before_in_eq_fetched 4 rfl (fun _ => rfl) (fun _ _ _ => rfl)
    (fun t => by rw [hafter]; unfold Dat.blockOf blockAt; rw [hA]; try rfl) t d).trans
    (by unfold Dat.fetched Dat.blockOf blockAt; rw [hA]; try rfl)

/-- The packed recurrent weight, resident. -/
theorem staged_5 {c : Dev nD} (dat : Dat τ (Elt F) Unit ℕ (UR sig nD τ) ℕ cfg0 c)
    (hA : dat.A 5 = atEntry m c (Pipeline.arrRef spec0 5)) (hafter : ∀ t, dat.after 5 t = blockAt m c 5 t)
    (t : Fin cfg0.N) (d) : dat.before 5 t d = blockAt m c 5 t :=
  (dat.before_in_eq_fetched 5 rfl (fun _ => rfl) (fun _ _ _ => rfl)
    (fun t => by rw [hafter]; unfold Dat.blockOf blockAt; rw [hA]; try rfl) t d).trans
    (by unfold Dat.fetched Dat.blockOf blockAt; rw [hA]; try rfl)

/-- The packed bias row, resident. -/
theorem staged_6 {c : Dev nD} (dat : Dat τ (Elt F) Unit ℕ (UR sig nD τ) ℕ cfg0 c)
    (hA : dat.A 6 = atEntry m c (Pipeline.arrRef spec0 6)) (hafter : ∀ t, dat.after 6 t = blockAt m c 6 t)
    (t : Fin cfg0.N) (d) : dat.before 6 t d = blockAt m c 6 t :=
  (dat.before_in_eq_fetched 6 rfl (fun _ => rfl) (fun _ _ _ => rfl)
    (fun t => by rw [hafter]; unfold Dat.blockOf blockAt; rw [hA]; try rfl) t d).trans
    (by unfold Dat.fetched Dat.blockOf blockAt; rw [hA]; try rfl)

end Cert.KernelIdeal.Entry

end
-- ==== Proof.KernelIdealBody.lean ====
/-
  What one grid point of `KernelIdeal`'s body does to its ten staging buffers.

  The point is handed a block of 256 rows of x (256 x 512), of h_prev, c_prev and n_prev (256 x 1024 each), the whole
  packed input weight (512 x 4096), the whole packed recurrent weight (1024 x 4096) and the packed bias row (1 x 4096).
  It forms the 256 x 4096 pre-activation  x W + h R + b,  cuts it into four 256 x 1024 gates  z = tanh, i = exp,
  f = logistic, o = logistic,  and stores three whole 256 x 1024 blocks:

      cell    = f * c_prev + i * z
      norm    = f * n_prev + i
      hidden  = o * (cell / norm)

  The seven inputs are left as they were. Each output buffer is overwritten in full by one store, so what it held
  before (the body loads it once, and never uses the value) does not matter.
-/
import proofs.«142605_j28226525070218_1_alg».proof.Proof.KernelIdealEntry

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The rectangles the body reads and writes: each is a whole buffer -/

abbrev allX : Rect S256x512 := Rect.unit (s := S256x512) ![0, 0] S256x512.size inb_S256x512_S256x512_0_0
abbrev allRows : Rect S256x1024 := Rect.unit (s := S256x1024) ![0, 0] S256x1024.size inb_S256x1024_S256x1024_0_0
abbrev allW : Rect S512x4096 := Rect.unit (s := S512x4096) ![0, 0] S512x4096.size inb_S512x4096_S512x4096_0_0
abbrev allR : Rect S1024x4096 := Rect.unit (s := S1024x4096) ![0, 0] S1024x4096.size inb_S1024x4096_S1024x4096_0_0
abbrev allB : Rect S1x4096 := Rect.unit (s := S1x4096) ![0, 0] S1x4096.size inb_S1x4096_S1x4096_0_0

/-! ## What the body leaves in each output buffer -/

/-- The new cell state block: `f * c_prev + i * z` of the point's blocks. -/
def cellBlock (x : Vec F S256x512 .f32) (h cp : Vec F S256x1024 .f32) (w : Vec F S512x4096 .bf16)
    (r : Vec F S1024x4096 .bf16) (b : Vec F S1x4096 .f32) : Vec F S256x1024 .f32 :=
  View.canon [⟨allRows, k0_pay4 (View.ld x allX) (View.ld h allRows) (View.ld w allW) (View.ld r allR) (View.ld b allB)
    (View.ld cp allRows)⟩]

/-- The new normaliser block: `f * n_prev + i`. -/
def normBlock (x : Vec F S256x512 .f32) (h np : Vec F S256x1024 .f32) (w : Vec F S512x4096 .bf16)
    (r : Vec F S1024x4096 .bf16) (b : Vec F S1x4096 .f32) : Vec F S256x1024 .f32 :=
  View.canon [⟨allRows, k0_pay5 (View.ld x allX) (View.ld h allRows) (View.ld w allW) (View.ld r allR) (View.ld b allB)
    (View.ld np allRows)⟩]

/-- The new hidden state block: `o * (cell / norm)`. -/
def hiddenBlock (x : Vec F S256x512 .f32) (h cp np : Vec F S256x1024 .f32) (w : Vec F S512x4096 .bf16)
    (r : Vec F S1024x4096 .bf16) (b : Vec F S1x4096 .f32) : Vec F S256x1024 .f32 :=
  View.canon [⟨allRows, k0_pay6 (View.ld x allX) (View.ld h allRows) (View.ld w allW) (View.ld r allR) (View.ld b allB)
    (View.ld cp allRows) (View.ld np allRows)⟩]

/-- One whole-buffer store covers the buffer. -/
theorem allRows_covers (p : Vec F S256x1024 .f32) (y : S256x1024.Idx) :
    ∃ pc ∈ ([⟨allRows, p⟩] : List (View.Piece (Elt F) S256x1024 .f32)), y ∈ pc.1.set :=
  View.cover_of_tiled [⟨allRows, p⟩] S256x1024.size (by rfl) y

/-! ## The body's triple -/

set_option maxHeartbeats 2000000 in
/-- The body on whole staging buffers, the seven inputs at known contents and the three outputs at anything, runs
    without a fault to a state holding the inputs unchanged and the outputs at the cell, normaliser and hidden
    blocks of those inputs. -/
theorem point_triple (c : Dev nD) (E : Set ℕ) (i : grid0.Coords)
    (a1 : Memref sig .tc .vmem S256x512 .f32) (h1 : a1.IsWhole)
    (a2 : Memref sig .tc .vmem S256x1024 .f32) (h2 : a2.IsWhole)
    (a3 : Memref sig .tc .vmem S256x1024 .f32) (h3 : a3.IsWhole)
    (a4 : Memref sig .tc .vmem S256x1024 .f32) (h4 : a4.IsWhole)
    (a5 : Memref sig .tc .vmem S512x4096 .bf16) (h5 : a5.IsWhole)
    (a6 : Memref sig .tc .vmem S1024x4096 .bf16) (h6 : a6.IsWhole)
    (a7 : Memref sig .tc .vmem S1x4096 .f32) (h7 : a7.IsWhole)
    (a8 : Memref sig .tc .vmem S256x1024 .f32) (h8 : a8.IsWhole)
    (a9 : Memref sig .tc .vmem S256x1024 .f32) (h9 : a9.IsWhole)
    (a10 : Memref sig .tc .vmem S256x1024 .f32) (h10 : a10.IsWhole)
    (x : Vec F S256x512 .f32) (h cp np : Vec F S256x1024 .f32) (w : Vec F S512x4096 .bf16)
    (r : Vec F S1024x4096 .bf16) (b : Vec F S1x4096 .f32) (K : PUnit → sProp 𝕄) :
    iprop(owns (c : Thread nD τ) a1 fullShare x ∗ owns (c : Thread nD τ) a2 fullShare h
        ∗ owns (c : Thread nD τ) a3 fullShare cp ∗ owns (c : Thread nD τ) a4 fullShare np
        ∗ owns (c : Thread nD τ) a5 fullShare w ∗ owns (c : Thread nD τ) a6 fullShare r
        ∗ owns (c : Thread nD τ) a7 fullShare b
        ∗ (∃ d, owns (c : Thread nD τ) a8 fullShare d) ∗ (∃ d, owns (c : Thread nD τ) a9 fullShare d)
        ∗ (∃ d, owns (c : Thread nD τ) a10 fullShare d)
        ∗ (iprop(owns (c : Thread nD τ) a1 fullShare x ∗ owns (c : Thread nD τ) a2 fullShare h
            ∗ owns (c : Thread nD τ) a3 fullShare cp ∗ owns (c : Thread nD τ) a4 fullShare np
            ∗ owns (c : Thread nD τ) a5 fullShare w ∗ owns (c : Thread nD τ) a6 fullShare r
            ∗ owns (c : Thread nD τ) a7 fullShare b
            ∗ owns (c : Thread nD τ) a8 fullShare (cellBlock x h cp w r b)
            ∗ owns (c : Thread nD τ) a9 fullShare (normBlock x h np w r b)
            ∗ owns (c : Thread nD τ) a10 fullShare (hiddenBlock x h cp np w r b)) -∗ K ⟨⟩))
      ⊢ wp frame (wpE (defs₀ (F := F)) Variants.none c none) E
          (cc0__slstm_kernel i a1 h1 a2 h2 a3 h3 a4 h4 a5 h5 a6 h6 a7 h7 a8 h8 a9 h9 a10 h10) K := by
  simp only [cc0__slstm_kernel_eq_skeleton]; unfold cc0__slstm_kernel_skel
  simp only [k0_part1_eq_skeleton]; unfold k0_part1_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩,
    ⟨%f7, %e7, H7⟩, ⟨%d8, %f8, -, H8⟩, ⟨%d9, %f9, -, H9⟩, ⟨%d10, %f10, -, H10⟩, Hk⟩
  subst e1 e2 e3 e4 e5 e6 e7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (allRows_covers _)
  isplitl [H9]
  · iexists _; isplitr
    swap; · iexact H9
    ipureintro
    exact View.read_writes_eq_canon _ _ _ (allRows_covers _)
  iexists _; isplitr
  swap; · iexact H10
  ipureintro
  exact View.read_writes_eq_canon _ _ _ (allRows_covers _)

end Cert.KernelIdeal.Body

end
-- ==== Proof.KernelIdealRun.lean ====
/-
  The whole run of `KernelIdeal`: @main's host operations, then the region over its 64 grid points, each point
  running the body on its blocks.

  The bookkeeping is: every window's array is what the region finds at entry; after the body at point `t` each of
  the seven input buffers still holds its block, and the three output buffers hold the cell, normaliser and hidden
  blocks computed from the point's input blocks. Point `t` sees rows 256 t .. 256 t + 255 of x, h_prev, c_prev and
  n_prev, and the whole of the packed weights and bias (those three are fetched once, at the first point, and stay).
  From this the library's launch theorem gives the run: it terminates, nothing faults, the output arrays hold what
  the points wrote back, and every other buffer is as the region found it -- in particular every argument array is
  unchanged, which is the frame claim.
-/
import proofs.«142605_j28226525070218_1_alg».proof.Proof.KernelIdealBody

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Entry Cert.KernelIdeal.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the region finds them; after the body at point `t` each input buffer at its block
    and each output buffer at its block of results; nothing else is owned or owed. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => cellBlock (blockAt m c 0 t) (blockAt m c 1 t) (blockAt m c 2 t) (blockAt m c 4 t) (blockAt m c 5 t) (blockAt m c 6 t)
    | ⟨8, _⟩ => normBlock (blockAt m c 0 t) (blockAt m c 1 t) (blockAt m c 3 t) (blockAt m c 4 t) (blockAt m c 5 t) (blockAt m c 6 t)
    | ⟨9, _⟩ => hiddenBlock (blockAt m c 0 t) (blockAt m c 1 t) (blockAt m c 2 t) (blockAt m c 3 t) (blockAt m c 4 t) (blockAt m c 5 t) (blockAt m c 6 t)
  Φ _ := Pipeline.ΦA spec0 c
  q _ := fullShare
  owed _ := 0

theorem A_eq (c : Dev nD) (w : Fin cfg0.W) : (dats m 0 c).A w = atEntry m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = blockAt m c 4 t := by dsimp only [dats]
theorem after_5 (c : Dev nD) (t : Fin cfg0.N) : (dats m 0 c).after 5 t = blockAt m c 5 t := by dsimp only [dats]
theorem after_6 (c : Dev nD) (t : Fin cfg0.N) : (dats m 0 c).after 6 t = blockAt m c 6 t := by dsimp only [dats]
theorem after_7 (c : Dev nD) (t : Fin cfg0.N) : (dats m 0 c).after 7 t
    = cellBlock (blockAt m c 0 t) (blockAt m c 1 t) (blockAt m c 2 t) (blockAt m c 4 t) (blockAt m c 5 t) (blockAt m c 6 t) := by
  dsimp only [dats]
theorem after_8 (c : Dev nD) (t : Fin cfg0.N) : (dats m 0 c).after 8 t
    = normBlock (blockAt m c 0 t) (blockAt m c 1 t) (blockAt m c 3 t) (blockAt m c 4 t) (blockAt m c 5 t) (blockAt m c 6 t) := by
  dsimp only [dats]
theorem after_9 (c : Dev nD) (t : Fin cfg0.N) : (dats m 0 c).after 9 t
    = hiddenBlock (blockAt m c 0 t) (blockAt m c 1 t) (blockAt m c 2 t) (blockAt m c 3 t) (blockAt m c 4 t) (blockAt m c 5 t) (blockAt m c 6 t) := by
  dsimp only [dats]

/-- Each input buffer holds its block when the body starts, at every point. -/
theorem before_0 (c : Dev nD) (t : Fin cfg0.N) (d) : (dats m 0 c).before 0 t d = blockAt m c 0 t :=
  staged_0 m (dats m 0 c) (A_eq m c 0) (after_0 m c) t d
theorem before_1 (c : Dev nD) (t : Fin cfg0.N) (d) : (dats m 0 c).before 1 t d = blockAt m c 1 t :=
  staged_1 m (dats m 0 c) (A_eq m c 1) (after_1 m c) t d
theorem before_2 (c : Dev nD) (t : Fin cfg0.N) (d) : (dats m 0 c).before 2 t d = blockAt m c 2 t :=
  staged_2 m (dats m 0 c) (A_eq m c 2) (after_2 m c) t d
theorem before_3 (c : Dev nD) (t : Fin cfg0.N) (d) : (dats m 0 c).before 3 t d = blockAt m c 3 t :=
  staged_3 m (dats m 0 c) (A_eq m c 3) (after_3 m c) t d
theorem before_4 (c : Dev nD) (t : Fin cfg0.N) (d) : (dats m 0 c).before 4 t d = blockAt m c 4 t :=
  staged_4 m (dats m 0 c) (A_eq m c 4) (after_4 m c) t d
theorem before_5 (c : Dev nD) (t : Fin cfg0.N) (d) : (dats m 0 c).before 5 t d = blockAt m c 5 t :=
  staged_5 m (dats m 0 c) (A_eq m c 5) (after_5 m c) t d
theorem before_6 (c : Dev nD) (t : Fin cfg0.N) (d) : (dats m 0 c).before 6 t d = blockAt m c 6 t :=
  staged_6 m (dats m 0 c) (A_eq m c 6) (after_6 m c) t d

/-! ## The body at a grid point -/

/-- What the body is called with at point `t`: the ten current staging buffers, window by window. -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: its input buffers hold their blocks, so the body's triple applies; whatever else the
    core owns passes through untouched. -/
theorem point_sound (c : Dev nD) (t : Fin cfg0.N) :
    pointPre m c t ⊢ wp frame (wpE (defs₀ (F := F)) Variants.none c none) Set.univ (bodyAt0 t) (fun _ => pointPost m c t) := by
  unfold pointPre pointPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (point_triple c Set.univ _ _ _ _ _ _ _ _ _ _ _ _ _ _ _ _ _ _ _ _ _
    (blockAt m c 0 t) (blockAt m c 1 t) (blockAt m c 2 t) (blockAt m c 3 t) (blockAt m c 4 t) (blockAt m c 5 t) (blockAt m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The launch theorem's obligation, at every point. -/
theorem every_point (c : Dev nD) : BodyObligation (dats (F := F) m 0 c) (defs₀ (F := F)) Variants.none () Set.univ := fun t => by
  rw [bigSep_W0, bigSep_W0]
  exact point_sound m c t

/-! ## The run -/

set_option backward.isDefEq.respectTransparency.types false in
/-- Every weakly fair execution of @main terminates without a fault; at the end each window's array holds what the
    bookkeeping computes, and every other unscoped buffer what the region found. -/
theorem run_main : θ_run defs (onTc (τ := τ) (main (F := F))) (s₀ m ρ) (Pipeline.FramePost cfgs (dats m) 0 (atEntry m)) :=
  Pipeline.θ_run_frame cfgs (dats m) (0 : Fin 1) launch0 defs₀ Variants.none m ρ main
    (hbody := fun c => (every_point m c).loose) (hshare := fun c => (dats m 0 c).share_full fun _ => rfl)
    (howed := fun _ _ => rfl) (V := atEntry m) (hmain := main_upto_region m Variants.none) (hA := A_eq m) (hΦ := fun _ _ => rfl)

/-! ## Reading the argument arrays off the run's final state -/

/-- An array that an INPUT window stages ends as the region found it. -/
theorem input_array_kept {r : PUnit × MemSt nD τ sig (Elt F)} (h : Pipeline.FramePost cfgs (dats m) 0 (atEntry m) r)
    (c : Dev nD) (w : Fin cfg0.W) (hin : (cfg0.win w).isOut = false) :
    r.2.mem (((cfgs 0).spec w).arr.view.loc (c.tc : Thread nD τ)) = atEntry m c (Pipeline.arrRef spec0 w) :=
  ((h c).1 w).trans (((dats m 0 c).arrAt_in w hin _).trans (A_eq m c w))

/-- A buffer that no window stages ends as the region found it. -/
theorem other_buffer_kept {r : PUnit × MemSt nD τ sig (Elt F)} (h : Pipeline.FramePost cfgs (dats m) 0 (atEntry m) r)
    (c : Dev nD) (b : Ref sig .tc) (hs : b.isScoped = false) (ha : ∀ w, (spec0 w).arr.view.ref ≠ b) :
    r.2.mem ((c.tc : Thread nD τ).loc b) = atEntry m c b :=
  (h c).2 b (Pipeline.mem_restRefs_of b hs ha)

/-- Buffer `b` ends the run holding what it was launched with. -/
abbrev Unchanged (r : PUnit × MemSt nD τ sig (Elt F)) (c : Dev nD) (b : Ref sig .tc) : Prop :=
  r.2.mem ((c.tc : Thread nD τ).loc b) = m ((c.tc : Thread nD τ).loc b)

/-- The twenty argument arrays end unchanged: x, c_prev, n_prev and h_prev are staged by input windows, which are never
    written back; the sixteen weights and biases are staged by no window; and no host operation writes an argument. -/
theorem args_kept {r : PUnit × MemSt nD τ sig (Elt F)} (h : Pipeline.FramePost cfgs (dats m) 0 (atEntry m) r) (c : Dev nD) :
    Unchanged m r c main_arg0
    ∧ Unchanged m r c main_arg1
    ∧ Unchanged m r c main_arg2
    ∧ Unchanged m r c main_arg3
    ∧ Unchanged m r c main_arg4
    ∧ Unchanged m r c main_arg5
    ∧ Unchanged m r c main_arg6
    ∧ Unchanged m r c main_arg7
    ∧ Unchanged m r c main_arg8
    ∧ Unchanged m r c main_arg9
    ∧ Unchanged m r c main_arg10
    ∧ Unchanged m r c main_arg11
    ∧ Unchanged m r c main_arg12
    ∧ Unchanged m r c main_arg13
    ∧ Unchanged m r c main_arg14
    ∧ Unchanged m r c main_arg15
    ∧ Unchanged m r c main_arg16
    ∧ Unchanged m r c main_arg17
    ∧ Unchanged m r c main_arg18
    ∧ Unchanged m r c main_arg19 :=
  ⟨(input_array_kept m h c 0 rfl).trans (atEntry_of_unwritten m c main_arg0 (by decide)),
   (input_array_kept m h c 2 rfl).trans (atEntry_of_unwritten m c main_arg1 (by decide)),
   (input_array_kept m h c 3 rfl).trans (atEntry_of_unwritten m c main_arg2 (by decide)),
   (input_array_kept m h c 1 rfl).trans (atEntry_of_unwritten m c main_arg3 (by decide)),
   (other_buffer_kept m h c main_arg4 (by decide) (by decide)).trans (atEntry_of_unwritten m c main_arg4 (by decide)),
   (other_buffer_kept m h c main_arg5 (by decide) (by decide)).trans (atEntry_of_unwritten m c main_arg5 (by decide)),
   (other_buffer_kept m h c main_arg6 (by decide) (by decide)).trans (atEntry_of_unwritten m c main_arg6 (by decide)),
   (other_buffer_kept m h c main_arg7 (by decide) (by decide)).trans (atEntry_of_unwritten m c main_arg7 (by decide)),
   (other_buffer_kept m h c main_arg8 (by decide) (by decide)).trans (atEntry_of_unwritten m c main_arg8 (by decide)),
   (other_buffer_kept m h c main_arg9 (by decide) (by decide)).trans (atEntry_of_unwritten m c main_arg9 (by decide)),
   (other_buffer_kept m h c main_arg10 (by decide) (by decide)).trans (atEntry_of_unwritten m c main_arg10 (by decide)),
   (other_buffer_kept m h c main_arg11 (by decide) (by decide)).trans (atEntry_of_unwritten m c main_arg11 (by decide)),
   (other_buffer_kept m h c main_arg12 (by decide) (by decide)).trans (atEntry_of_unwritten m c main_arg12 (by decide)),
   (other_buffer_kept m h c main_arg13 (by decide) (by decide)).trans (atEntry_of_unwritten m c main_arg13 (by decide)),
   (other_buffer_kept m h c main_arg14 (by decide) (by decide)).trans (atEntry_of_unwritten m c main_arg14 (by decide)),
   (other_buffer_kept m h c main_arg15 (by decide) (by decide)).trans (atEntry_of_unwritten m c main_arg15 (by decide)),
   (other_buffer_kept m h c main_arg16 (by decide) (by decide)).trans (atEntry_of_unwritten m c main_arg16 (by decide)),
   (other_buffer_kept m h c main_arg17 (by decide) (by decide)).trans (atEntry_of_unwritten m c main_arg17 (by decide)),
   (other_buffer_kept m h c main_arg18 (by decide) (by decide)).trans (atEntry_of_unwritten m c main_arg18 (by decide)),
   (other_buffer_kept m h c main_arg19 (by decide) (by decide)).trans (atEntry_of_unwritten m c main_arg19 (by decide))⟩

end Cert.KernelIdeal.Run

end
-- ==== Proof.KernelIdealPacked.lean ====
/-
  The three arrays the host prepares for the region, read entry by entry.

  Before the region @main packs the gates side by side. With g = 0, 1, 2, 3 for the gates z, i, f, o:

    * the packed input weight (512 x 4096): gate g's weight (1024 x 512) is transposed and the four transposes are laid
      along the columns, so column 1024 g + j holds row j of gate g's weight:   Wp(k, 1024 g + j) = W_g(j, k);
    * the packed recurrent weight (1024 x 4096), in the same way:               Rp(k, 1024 g + j) = R_g(j, k);
    * the packed bias row (1 x 4096): each gate's two bias vectors are added, the four sums laid end to end and the
      result viewed as one row:                                                bp(0, 1024 g + j) = b_g(j) + a_g(j).

  Both packed weights are then rounded to a narrower float format, which at the exact instance changes nothing.
-/
import proofs.«142605_j28226525070218_1_alg».proof.Proof.KernelIdealEntry
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Packed

open Idealize.ShloMosaic Idealize.ShloMosaic.TcCoe Idealize.ShloMosaic.ValueIdx Idealize.SL.Sem
open Cert.KernelIdeal Cert.KernelIdeal.Gen Cert.KernelIdeal.Entry

variable (m : (ℓ : Loc nD τ sig) → Buf (Elt Ideal) ℓ)

/-! ## The gates' arguments, indexed by the gate -/

/-- Gate g's input weight. -/
def gateW (c : Dev nD) : Fin 4 → FVec Ideal S1024x512 .f32
  | ⟨0, _⟩ => m ((c : Thread nD τ).loc main_arg4)
  | ⟨1, _⟩ => m ((c : Thread nD τ).loc main_arg5)
  | ⟨2, _⟩ => m ((c : Thread nD τ).loc main_arg6)
  | ⟨3, _⟩ => m ((c : Thread nD τ).loc main_arg7)
/-- Gate g's recurrent weight. -/
def gateR (c : Dev nD) : Fin 4 → FVec Ideal S1024x1024 .f32
  | ⟨0, _⟩ => m ((c : Thread nD τ).loc main_arg12)
  | ⟨1, _⟩ => m ((c : Thread nD τ).loc main_arg13)
  | ⟨2, _⟩ => m ((c : Thread nD τ).loc main_arg14)
  | ⟨3, _⟩ => m ((c : Thread nD τ).loc main_arg15)
/-- Gate g's first bias vector. -/
def gateB (c : Dev nD) : Fin 4 → FVec Ideal S1024 .f32
  | ⟨0, _⟩ => m ((c : Thread nD τ).loc main_arg8)
  | ⟨1, _⟩ => m ((c : Thread nD τ).loc main_arg9)
  | ⟨2, _⟩ => m ((c : Thread nD τ).loc main_arg10)
  | ⟨3, _⟩ => m ((c : Thread nD τ).loc main_arg11)
/-- Gate g's second bias vector. -/
def gateA (c : Dev nD) : Fin 4 → FVec Ideal S1024 .f32
  | ⟨0, _⟩ => m ((c : Thread nD τ).loc main_arg16)
  | ⟨1, _⟩ => m ((c : Thread nD τ).loc main_arg17)
  | ⟨2, _⟩ => m ((c : Thread nD τ).loc main_arg18)
  | ⟨3, _⟩ => m ((c : Thread nD τ).loc main_arg19)

/-! ## The packed arrays as the host operations' terms -/

theorem packedInput_eq (c : Dev nD) :
    (atEntry m c main_v5 : FVec Ideal S512x4096 .bf16) =
      truncf (F := Ideal) .bf16 (concatenate S512x4096 1
        [⟨S512x1024, transpose S512x1024 [1, 0] (gateW m c 0) transposes_S1024x512_S512x1024_1_0⟩,
         ⟨S512x1024, transpose S512x1024 [1, 0] (gateW m c 1) transposes_S1024x512_S512x1024_1_0⟩,
         ⟨S512x1024, transpose S512x1024 [1, 0] (gateW m c 2) transposes_S1024x512_S512x1024_1_0⟩,
         ⟨S512x1024, transpose S512x1024 [1, 0] (gateW m c 3) transposes_S1024x512_S512x1024_1_0⟩]
        concatenates_S512x1024_S512x1024_S512x1024_S512x1024_S512x4096_d1 : FVec Ideal S512x4096 .f32) bitsLt_bf16_f32 := by
  dsimp only [atEntry, hostOps0]; after_results; rfl

theorem packedRecurrent_eq (c : Dev nD) :
    (atEntry m c main_v11 : FVec Ideal S1024x4096 .bf16) =
      truncf (F := Ideal) .bf16 (concatenate S1024x4096 1
        [⟨S1024x1024, transpose S1024x1024 [1, 0] (gateR m c 0) transposes_S1024x1024_S1024x1024_1_0⟩,
         ⟨S1024x1024, transpose S1024x1024 [1, 0] (gateR m c 1) transposes_S1024x1024_S1024x1024_1_0⟩,
         ⟨S1024x1024, transpose S1024x1024 [1, 0] (gateR m c 2) transposes_S1024x1024_S1024x1024_1_0⟩,
         ⟨S1024x1024, transpose S1024x1024 [1, 0] (gateR m c 3) transposes_S1024x1024_S1024x1024_1_0⟩]
        concatenates_S1024x1024_S1024x1024_S1024x1024_S1024x1024_S1024x4096_d1 : FVec Ideal S1024x4096 .f32) bitsLt_bf16_f32 := by
  dsimp only [atEntry, hostOps0]; after_results; rfl

theorem packedBias_eq (c : Dev nD) :
    (atEntry m c main_v17 : FVec Ideal S1x4096 .f32) =
      shapeCast S1x4096 (concatenate S4096 0
        [⟨S1024, addf (gateB m c 0) (gateA m c 0)⟩, ⟨S1024, addf (gateB m c 1) (gateA m c 1)⟩,
         ⟨S1024, addf (gateB m c 2) (gateA m c 2)⟩, ⟨S1024, addf (gateB m c 3) (gateA m c 3)⟩]
        concatenates_S1024_S1024_S1024_S1024_S4096_d0 : FVec Ideal S4096 .f32) shapeCasts_S4096_S1x4096 := by
  dsimp only [atEntry, hostOps0]; after_results; rfl

/-! ## Read at an entry -/

/-- Column 1024 g + j of the packed input weight is row j of gate g's weight. -/
theorem packedInput_apply (c : Dev nD) (g : Fin 4) (k : Fin 512) (j : Fin 1024) (q : Fin 4096)
    (hq : q.val = 1024 * g.val + j.val) :
    (atEntry m c main_v5 : FVec Ideal S512x4096 .bf16) (ix2 k q) = gateW m c g (ix2 j k) := by
  rw [packedInput_eq, truncf_apply]
  refine (concatenate_apply_piece (t := S512x4096) (1 : Fin 2) _ _ _ g.val ?_ S512x1024
    (transpose S512x1024 [1, 0] (gateW m c g) transposes_S1024x512_S512x1024_1_0)
    ?_ rfl (1024 * g.val) ?_ (ix2 k j) ?_ ?_).trans ?_
  · simp
  · fin_cases g <;> rfl
  · fin_cases g <;> rfl
  · intro b hb
    match b with
    | ⟨0, _⟩ => rfl
    | ⟨1, _⟩ => exact absurd rfl hb
  · exact hq.symm
  · exact transpose_ix2_apply _ _ k j

/-- Column 1024 g + j of the packed recurrent weight is row j of gate g's recurrent weight. -/
theorem packedRecurrent_apply (c : Dev nD) (g : Fin 4) (k : Fin 1024) (j : Fin 1024) (q : Fin 4096)
    (hq : q.val = 1024 * g.val + j.val) :
    (atEntry m c main_v11 : FVec Ideal S1024x4096 .bf16) (ix2 k q) = gateR m c g (ix2 j k) := by
  rw [packedRecurrent_eq, truncf_apply]
  refine (concatenate_apply_piece (t := S1024x4096) (1 : Fin 2) _ _ _ g.val ?_ S1024x1024
    (transpose S1024x1024 [1, 0] (gateR m c g) transposes_S1024x1024_S1024x1024_1_0)
    ?_ rfl (1024 * g.val) ?_ (ix2 k j) ?_ ?_).trans ?_
  · simp
  · fin_cases g <;> rfl
  · fin_cases g <;> rfl
  · intro b hb
    match b with
    | ⟨0, _⟩ => rfl
    | ⟨1, _⟩ => exact absurd rfl hb
  · exact hq.symm
  · exact transpose_ix2_apply _ _ k j

/-- Entry 1024 g + j of the packed bias row is the sum of gate g's two biases at j. -/
theorem packedBias_apply (c : Dev nD) (g : Fin 4) (j : Fin 1024) (q : Fin 4096) (hq : q.val = 1024 * g.val + j.val) :
    (atEntry m c main_v17 : FVec Ideal S1x4096 .f32) (ix2 (0 : Fin 1) q) = gateB m c g (ix1 j) + gateA m c g (ix1 j) := by
  rw [packedBias_eq, shapeCast_a_1a_apply]
  refine (concatenate_apply_piece (t := S4096) (0 : Fin 1) _ _ (ix1 q) g.val ?_ S1024
    (addf (gateB m c g) (gateA m c g)) ?_ rfl (1024 * g.val) ?_ (ix1 j) ?_ ?_).trans ?_
  · simp
  · fin_cases g <;> rfl
  · fin_cases g <;> rfl
  · intro b hb
    match b with
    | ⟨0, _⟩ => exact absurd rfl hb
  · exact hq.symm
  · rfl

end Cert.KernelIdeal.Packed

end
-- ==== Proof.KernelIdealGates.lean ====
/-
  The body's arithmetic at the exact instance, read entry by entry.

  With p a row of the point's block (0 .. 255) and q a column of the packed width (0 .. 4095), the 256 x 4096
  pre-activation block is

      P(p, q) = ( sum_k x(p,k) W(k,q)  +  sum_k h(p,k) R(k,q) )  +  b(0, q):

  the two matrix products are plain sums over the contracted axis (into a zero accumulator, and rounding to a
  narrower float format is the identity here), and the bias row is repeated down the rows. Column q = 1024 g + j of
  P is gate g's pre-activation at unit j: the gates are the four column bands z (g = 0), i (g = 1), f (g = 2),
  o (g = 3). The three stored blocks are then, at (p, j),

      cell   = logistic P(p, 2048 + j) * c(p,j) + exp P(p, 1024 + j) * tanh P(p, j)
      norm   = logistic P(p, 2048 + j) * n(p,j) + exp P(p, 1024 + j)
      hidden = logistic P(p, 3072 + j) * ( cell / norm ).
-/
import proofs.«142605_j28226525070218_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Gates

open Idealize.ShloMosaic Idealize.ShloMosaic.ValueIdx Cert.KernelIdeal Cert.KernelIdeal.Gen
open scoped BigOperators

/-! ## The two matrix products as sums -/

/-- The rows-by-packed-input-weight product: contracts the 512 input features. -/
abbrev dotXW : DotDims S256x512 S512x4096 S256x4096 := dot_S256x512_S512x4096_S256x4096_1_0_0_1_n_n
/-- The rows-by-packed-recurrent-weight product: contracts the 1024 hidden units. -/
abbrev dotHR : DotDims S256x1024 S1024x4096 S256x4096 := dot_S256x1024_S1024x4096_S256x4096_1_0_0_1_n_n

theorem xw_left_row (i : S256x4096.Idx) (q : dotXW.contr.Idx) : (dotXW.lhsIdx i q 0).val = (i 0).val := by
  unfold DotDims.lhsIdx
  rw [dif_neg (show ¬(0 : Fin S256x512.rank) ∈ dotXW.lhsBatch by decide),
    dif_pos (show (0 : Fin S256x512.rank) ∈ dotXW.lhsNonContracting by decide)]
  rfl
theorem xw_left_k (i : S256x4096.Idx) (q : dotXW.contr.Idx) : (dotXW.lhsIdx i q 1).val = (q ⟨0, by decide⟩).val :=
  dotXW.lhsIdx_val_of_single rfl i q
theorem xw_right_k (i : S256x4096.Idx) (q : dotXW.contr.Idx) : (dotXW.rhsIdx i q 0).val = (q ⟨0, by decide⟩).val :=
  dotXW.rhsIdx_val_of_single rfl i q
theorem xw_right_col (i : S256x4096.Idx) (q : dotXW.contr.Idx) : (dotXW.rhsIdx i q 1).val = (i 1).val := by
  unfold DotDims.rhsIdx
  rw [dif_neg (show ¬(1 : Fin S512x4096.rank) ∈ dotXW.rhsBatch by decide),
    dif_pos (show (1 : Fin S512x4096.rank) ∈ dotXW.rhsNonContracting by decide)]
  rfl

theorem hr_left_row (i : S256x4096.Idx) (q : dotHR.contr.Idx) : (dotHR.lhsIdx i q 0).val = (i 0).val := by
  unfold DotDims.lhsIdx
  rw [dif_neg (show ¬(0 : Fin S256x1024.rank) ∈ dotHR.lhsBatch by decide),
    dif_pos (show (0 : Fin S256x1024.rank) ∈ dotHR.lhsNonContracting by decide)]
  rfl
theorem hr_left_k (i : S256x4096.Idx) (q : dotHR.contr.Idx) : (dotHR.lhsIdx i q 1).val = (q ⟨0, by decide⟩).val :=
  dotHR.lhsIdx_val_of_single rfl i q
theorem hr_right_k (i : S256x4096.Idx) (q : dotHR.contr.Idx) : (dotHR.rhsIdx i q 0).val = (q ⟨0, by decide⟩).val :=
  dotHR.rhsIdx_val_of_single rfl i q
theorem hr_right_col (i : S256x4096.Idx) (q : dotHR.contr.Idx) : (dotHR.rhsIdx i q 1).val = (i 1).val := by
  unfold DotDims.rhsIdx
  rw [dif_neg (show ¬(1 : Fin S1024x4096.rank) ∈ dotHR.rhsBatch by decide),
    dif_pos (show (1 : Fin S1024x4096.rank) ∈ dotHR.rhsNonContracting by decide)]
  rfl

/-- Entry (p, q) of rows times the packed input weight, into a zero accumulator: the sum over the 512 features. -/
theorem rows_times_input (x : FVec Ideal S256x512 .bf16) (w : FVec Ideal S512x4096 .bf16) (p : Fin 256) (q : Fin 4096) :
    matmul dotXW none x w (constant S256x4096 .f32 0x00000000#32) (ix2 p q) = ∑ k : Fin 512, x (ix2 p k) * w (ix2 k q) := by
  simp only [matmul]
  rw [Ideal.matmul_constant_zero_apply, ← Equiv.sum_comp (contrEquiv1 dotXW 512 rfl rfl).symm]
  refine Finset.sum_congr rfl fun k _ => ?_
  have hk := contrEquiv1_symm_val dotXW 512 rfl rfl k
  have el : dotXW.lhsIdx (ix2 p q) ((contrEquiv1 dotXW 512 rfl rfl).symm k) = ix2 p k := funext fun a => Fin.ext (by
    match a with
    | ⟨0, _⟩ => exact xw_left_row _ _
    | ⟨1, _⟩ => exact (xw_left_k _ _).trans hk)
  have er : dotXW.rhsIdx (ix2 p q) ((contrEquiv1 dotXW 512 rfl rfl).symm k) = ix2 k q := funext fun a => Fin.ext (by
    match a with
    | ⟨0, _⟩ => exact (xw_right_k _ _).trans hk
    | ⟨1, _⟩ => exact xw_right_col _ _)
  rw [el, er]

/-- Entry (p, q) of rows times the packed recurrent weight: the sum over the 1024 hidden units. -/
theorem rows_times_recurrent (h : FVec Ideal S256x1024 .bf16) (r : FVec Ideal S1024x4096 .bf16) (p : Fin 256) (q : Fin 4096) :
    matmul dotHR none h r (constant S256x4096 .f32 0x00000000#32) (ix2 p q) = ∑ k : Fin 1024, h (ix2 p k) * r (ix2 k q) := by
  simp only [matmul]
  rw [Ideal.matmul_constant_zero_apply, ← Equiv.sum_comp (contrEquiv1 dotHR 1024 rfl rfl).symm]
  refine Finset.sum_congr rfl fun k _ => ?_
  have hk := contrEquiv1_symm_val dotHR 1024 rfl rfl k
  have el : dotHR.lhsIdx (ix2 p q) ((contrEquiv1 dotHR 1024 rfl rfl).symm k) = ix2 p k := funext fun a => Fin.ext (by
    match a with
    | ⟨0, _⟩ => exact hr_left_row _ _
    | ⟨1, _⟩ => exact (hr_left_k _ _).trans hk)
  have er : dotHR.rhsIdx (ix2 p q) ((contrEquiv1 dotHR 1024 rfl rfl).symm k) = ix2 k q := funext fun a => Fin.ext (by
    match a with
    | ⟨0, _⟩ => exact (hr_right_k _ _).trans hk
    | ⟨1, _⟩ => exact hr_right_col _ _)
  rw [el, er]

/-! ## The pre-activation block -/

/-- The pre-activation block at (p, q). -/
def preact (x : Vec Ideal S256x512 .f32) (h : Vec Ideal S256x1024 .f32) (w : Vec Ideal S512x4096 .bf16)
    (r : Vec Ideal S1024x4096 .bf16) (b : Vec Ideal S1x4096 .f32) (p : Fin 256) (q : Fin 4096) : EReal :=
  (∑ k : Fin 512, x (ix2 p k) * w (ix2 k q) + ∑ k : Fin 1024, h (ix2 p k) * r (ix2 k q)) + b (ix2 (0 : Fin 1) q)

theorem preact_apply (x : Vec Ideal S256x512 .f32) (h : Vec Ideal S256x1024 .f32) (w : Vec Ideal S512x4096 .bf16)
    (r : Vec Ideal S1024x4096 .bf16) (b : Vec Ideal S1x4096 .f32) (p : Fin 256) (q : Fin 4096) :
    k0_pay1 x h w r b (ix2 p q) = preact x h w r b p q := by
  unfold k0_pay1 preact
  simp only [addf_apply]
  rw [shapeCast_self, shapeCast_self, shapeCast_self, rows_times_input, rows_times_recurrent, broadcastTo_1b_ab_apply]
  rfl

/-! ## The three stored blocks -/

/-- The input gate: exp of band 1. -/
theorem inputGate_apply (x : Vec Ideal S256x512 .f32) (h : Vec Ideal S256x1024 .f32) (w : Vec Ideal S512x4096 .bf16)
    (r : Vec Ideal S1024x4096 .bf16) (b : Vec Ideal S1x4096 .f32) (p : Fin 256) (j : Fin 1024) :
    k0_pay2 x h w r b (ix2 p j) = Ideal.exp (preact x h w r b p ⟨1024 + j.val, by omega⟩) := by
  unfold k0_pay2
  show FloatOps.exp (extractStridedSlice S256x1024 ![0, 1024] (k0_pay1 x h w r b) _ (ix2 p j)) = _
  rw [slice2_axis1_apply 1024 _ _ p j ⟨1024 + j.val, by omega⟩ rfl, preact_apply]
  rfl

/-- The forget gate: logistic of band 2. -/
theorem forgetGate_apply (x : Vec Ideal S256x512 .f32) (h : Vec Ideal S256x1024 .f32) (w : Vec Ideal S512x4096 .bf16)
    (r : Vec Ideal S1024x4096 .bf16) (b : Vec Ideal S1x4096 .f32) (p : Fin 256) (j : Fin 1024) :
    k0_pay3 x h w r b (ix2 p j) = Ideal.logistic (preact x h w r b p ⟨2048 + j.val, by omega⟩) := by
  unfold k0_pay3
  show FloatOps.logistic (extractStridedSlice S256x1024 ![0, 2048] (k0_pay1 x h w r b) _ (ix2 p j)) = _
  rw [slice2_axis1_apply 2048 _ _ p j ⟨2048 + j.val, by omega⟩ rfl, preact_apply]
  rfl

/-- The stored cell block. -/
theorem cell_apply (x : Vec Ideal S256x512 .f32) (h : Vec Ideal S256x1024 .f32) (w : Vec Ideal S512x4096 .bf16)
    (r : Vec Ideal S1024x4096 .bf16) (b : Vec Ideal S1x4096 .f32) (cp : Vec Ideal S256x1024 .f32) (p : Fin 256) (j : Fin 1024) :
    k0_pay4 x h w r b cp (ix2 p j)
      = Ideal.logistic (preact x h w r b p ⟨2048 + j.val, by omega⟩) * cp (ix2 p j)
        + Ideal.exp (preact x h w r b p ⟨1024 + j.val, by omega⟩) * Ideal.tanh (preact x h w r b p ⟨j.val, by omega⟩) := by
  unfold k0_pay4
  show FloatOps.addf (FloatOps.mulf (k0_pay3 x h w r b (ix2 p j)) (cp (ix2 p j)))
      (FloatOps.mulf (k0_pay2 x h w r b (ix2 p j))
        (FloatOps.tanh (extractStridedSlice S256x1024 ![0, 0] (k0_pay1 x h w r b) _ (ix2 p j)))) = _
  rw [forgetGate_apply, inputGate_apply, slice2_axis1_apply 0 _ _ p j ⟨j.val, by omega⟩ (by simp), preact_apply]
  rfl

/-- The stored normaliser block. -/
theorem norm_apply (x : Vec Ideal S256x512 .f32) (h : Vec Ideal S256x1024 .f32) (w : Vec Ideal S512x4096 .bf16)
    (r : Vec Ideal S1024x4096 .bf16) (b : Vec Ideal S1x4096 .f32) (np : Vec Ideal S256x1024 .f32) (p : Fin 256) (j : Fin 1024) :
    k0_pay5 x h w r b np (ix2 p j)
      = Ideal.logistic (preact x h w r b p ⟨2048 + j.val, by omega⟩) * np (ix2 p j)
        + Ideal.exp (preact x h w r b p ⟨1024 + j.val, by omega⟩) := by
  unfold k0_pay5
  show FloatOps.addf (FloatOps.mulf (k0_pay3 x h w r b (ix2 p j)) (np (ix2 p j))) (k0_pay2 x h w r b (ix2 p j)) = _
  rw [forgetGate_apply, inputGate_apply]
  rfl

/-- The stored hidden block. -/
theorem hidden_apply (x : Vec Ideal S256x512 .f32) (h : Vec Ideal S256x1024 .f32) (w : Vec Ideal S512x4096 .bf16)
    (r : Vec Ideal S1024x4096 .bf16) (b : Vec Ideal S1x4096 .f32) (cp np : Vec Ideal S256x1024 .f32) (p : Fin 256) (j : Fin 1024) :
    k0_pay6 x h w r b cp np (ix2 p j)
      = Ideal.logistic (preact x h w r b p ⟨3072 + j.val, by omega⟩)
        * Ideal.div (k0_pay4 x h w r b cp (ix2 p j)) (k0_pay5 x h w r b np (ix2 p j)) := by
  unfold k0_pay6
  show FloatOps.mulf (FloatOps.logistic (extractStridedSlice S256x1024 ![0, 3072] (k0_pay1 x h w r b) _ (ix2 p j)))
      (FloatOps.divf (k0_pay4 x h w r b cp (ix2 p j)) (k0_pay5 x h w r b np (ix2 p j))) = _
  rw [slice2_axis1_apply 3072 _ _ p j ⟨3072 + j.val, by omega⟩ rfl, preact_apply]
  rfl

end Cert.KernelIdeal.Gates

end
-- ==== Proof.CellStep.lean ====
/-
  The sLSTM cell step, as one function of the twenty argument arrays, entry by entry.

  Arguments: a batch of 16384 rows -- the input x (512 columns), and the previous cell state c, normaliser n and hidden
  state h (1024 columns each) --; for each of the four gates z, i, f, o an input weight W (1024 x 512), a recurrent
  weight R (1024 x 1024) and two bias vectors (1024 each).

  The pre-activation of gate g at batch row b and unit j is

      pre_g(b, j) = ( sum_k x(b,k) W_g(j,k)  +  sum_k h(b,k) R_g(j,k) )  +  ( bias1_g(j) + bias2_g(j) ),

  and the step is

      cell(b,j)   = logistic(pre_f) * c(b,j)  +  exp(pre_i) * tanh(pre_z)
      norm(b,j)   = logistic(pre_f) * n(b,j)  +  exp(pre_i)
      hidden(b,j) = logistic(pre_o) * ( cell(b,j) / norm(b,j) ),

  all on the extended reals with their exact operations. The kernel computes the two sums with the weights packed side
  by side (all four gates in one 4096-column product) and the row as the left factor; the reference computes them gate by
  gate with the weight as the left factor. Those are the same sums: multiplication of extended reals is commutative, and
  no other law is needed -- nothing is distributed, cancelled or reassociated, so no finiteness of the inputs is used.
-/
import Idealize.ShloMosaic.PureOps.Ideal
import Idealize.ShloMosaic.Lib.ValueIdx

noncomputable section

namespace Cert.CellStep

open Idealize.ShloMosaic Idealize.ShloMosaic.ValueIdx
open scoped BigOperators

/-- An array of extended reals with `r` rows and `n` columns. -/
abbrev Mat (r n : Nat) : Type := (⟨2, ![r, n]⟩ : Shape).Idx → EReal
/-- A vector of `n` extended reals. -/
abbrev Row (n : Nat) : Type := (⟨1, ![n]⟩ : Shape).Idx → EReal

/-- One gate's pre-activation at batch row `b`, unit `j`: the input and recurrent projections plus the two biases. -/
def pre (x : Mat 16384 512) (h : Mat 16384 1024) (W : Mat 1024 512) (R : Mat 1024 1024) (b1 b2 : Row 1024)
    (b : Fin 16384) (j : Fin 1024) : EReal :=
  (∑ k : Fin 512, x (ix2 b k) * W (ix2 j k) + ∑ k : Fin 1024, h (ix2 b k) * R (ix2 j k)) + (b1 (ix1 j) + b2 (ix1 j))

/-- The twenty arguments of one cell step. -/
structure Args where
  x : Mat 16384 512
  c : Mat 16384 1024
  n : Mat 16384 1024
  h : Mat 16384 1024
  Wz : Mat 1024 512
  Wi : Mat 1024 512
  Wf : Mat 1024 512
  Wo : Mat 1024 512
  bz : Row 1024
  bi : Row 1024
  bf : Row 1024
  bo : Row 1024
  Rz : Mat 1024 1024
  Ri : Mat 1024 1024
  Rf : Mat 1024 1024
  Ro : Mat 1024 1024
  az : Row 1024
  ai : Row 1024
  af : Row 1024
  ao : Row 1024

namespace Args
variable (A : Args)

/-- The four gates' pre-activations. -/
def preZ (b : Fin 16384) (j : Fin 1024) : EReal := pre A.x A.h A.Wz A.Rz A.bz A.az b j
def preI (b : Fin 16384) (j : Fin 1024) : EReal := pre A.x A.h A.Wi A.Ri A.bi A.ai b j
def preF (b : Fin 16384) (j : Fin 1024) : EReal := pre A.x A.h A.Wf A.Rf A.bf A.af b j
def preO (b : Fin 16384) (j : Fin 1024) : EReal := pre A.x A.h A.Wo A.Ro A.bo A.ao b j

/-- The new cell state. -/
def cellAt (b : Fin 16384) (j : Fin 1024) : EReal :=
  Ideal.logistic (A.preF b j) * A.c (ix2 b j) + Ideal.exp (A.preI b j) * Ideal.tanh (A.preZ b j)
/-- The new normaliser. -/
def normAt (b : Fin 16384) (j : Fin 1024) : EReal :=
  Ideal.logistic (A.preF b j) * A.n (ix2 b j) + Ideal.exp (A.preI b j)
/-- The new hidden state. -/
def hiddenAt (b : Fin 16384) (j : Fin 1024) : EReal :=
  Ideal.logistic (A.preO b j) * Ideal.div (A.cellAt b j) (A.normAt b j)

/-- The three results as arrays. -/
def cell : Mat 16384 1024 := fun i => A.cellAt (i 0) (i 1)
def norm : Mat 16384 1024 := fun i => A.normAt (i 0) (i 1)
def hidden : Mat 16384 1024 := fun i => A.hiddenAt (i 0) (i 1)

theorem cell_ix2 (b : Fin 16384) (j : Fin 1024) : A.cell (ix2 b j) = A.cellAt b j := rfl
theorem norm_ix2 (b : Fin 16384) (j : Fin 1024) : A.norm (ix2 b j) = A.normAt b j := rfl
theorem hidden_ix2 (b : Fin 16384) (j : Fin 1024) : A.hidden (ix2 b j) = A.hiddenAt b j := rfl

end Args

/-- The float word of 1.0 denotes the real number one. -/
theorem one_f32 : Ideal.ofBits .f32 0x3F800000#32 = (1 : EReal) := by
  simp [Ideal.ofBits, Ideal.ieee, -EReal.coe_mul]; norm_num

end Cert.CellStep

end
-- ==== Proof.KernelIdealPoint.lean ====
/-
  One grid point's three stored blocks are the specification's cell step on the rows the point is handed.

  A grid point is handed 256 consecutive rows of each batch array -- block row p is batch row `row p` -- together
  with the packed weights and the packed bias. Packing puts the four gates side by side along a width of 4096:
  column 1024 g + j of the packed input weight is row j of gate g's input weight, w(k, 1024 g + j) = W_g(j, k);
  likewise the packed recurrent weight, r(k, 1024 g + j) = R_g(j, k); and the packed bias row holds the sum of the
  gate's two bias vectors, b(0, 1024 g + j) = bias1_g(j) + bias2_g(j). Here g = 0, 1, 2, 3 is the gate z, i, f, o.

  Under exactly those equalities the block's pre-activation at (p, 1024 g + j),

      ( sum_k x(p,k) w(k, 1024 g + j)  +  sum_k h(p,k) r(k, 1024 g + j) )  +  b(0, 1024 g + j),

  is gate g's pre-activation of the specification at batch row `row p` and unit j: each term of each sum is rewritten
  by the equalities and is then literally the specification's term, the row entry on the left and the weight entry on
  the right, and the bias entry is the specification's bias sum. No law of arithmetic is used, not even commutativity.

  The three stored blocks are built from those four pre-activations and the block's rows of the previous cell state
  and normaliser by the same formulas as the specification's cell, normaliser and hidden state, so they agree with
  them at (`row p`, j).
-/
import proofs.«142605_j28226525070218_1_alg».proof.Proof.KernelIdealGates
import proofs.«142605_j28226525070218_1_alg».proof.Proof.CellStep

noncomputable section

namespace Cert.KernelIdeal.Point

open Idealize.ShloMosaic Idealize.ShloMosaic.ValueIdx Cert.KernelIdeal Cert.KernelIdeal.Gen Cert.KernelIdeal.Gates Cert.CellStep
open scoped BigOperators

/-- The seven blocks one grid point is handed, as parts of the argument arrays. -/
structure Sees (A : Args) (row : Fin 256 → Fin 16384) (x : Vec Ideal S256x512 .f32) (h cp np : Vec Ideal S256x1024 .f32)
    (w : Vec Ideal S512x4096 .bf16) (r : Vec Ideal S1024x4096 .bf16) (b : Vec Ideal S1x4096 .f32) : Prop where
  x_eq : ∀ (p : Fin 256) (k : Fin 512), x (ix2 p k) = A.x (ix2 (row p) k)
  h_eq : ∀ (p : Fin 256) (k : Fin 1024), h (ix2 p k) = A.h (ix2 (row p) k)
  c_eq : ∀ (p : Fin 256) (j : Fin 1024), cp (ix2 p j) = A.c (ix2 (row p) j)
  n_eq : ∀ (p : Fin 256) (j : Fin 1024), np (ix2 p j) = A.n (ix2 (row p) j)
  wz : ∀ (k : Fin 512) (j : Fin 1024), w (ix2 k (⟨j.val, by omega⟩ : Fin 4096)) = A.Wz (ix2 j k)
  wi : ∀ (k : Fin 512) (j : Fin 1024), w (ix2 k (⟨1024 + j.val, by omega⟩ : Fin 4096)) = A.Wi (ix2 j k)
  wf : ∀ (k : Fin 512) (j : Fin 1024), w (ix2 k (⟨2048 + j.val, by omega⟩ : Fin 4096)) = A.Wf (ix2 j k)
  wo : ∀ (k : Fin 512) (j : Fin 1024), w (ix2 k (⟨3072 + j.val, by omega⟩ : Fin 4096)) = A.Wo (ix2 j k)
  rz : ∀ (k : Fin 1024) (j : Fin 1024), r (ix2 k (⟨j.val, by omega⟩ : Fin 4096)) = A.Rz (ix2 j k)
  ri : ∀ (k : Fin 1024) (j : Fin 1024), r (ix2 k (⟨1024 + j.val, by omega⟩ : Fin 4096)) = A.Ri (ix2 j k)
  rf : ∀ (k : Fin 1024) (j : Fin 1024), r (ix2 k (⟨2048 + j.val, by omega⟩ : Fin 4096)) = A.Rf (ix2 j k)
  ro : ∀ (k : Fin 1024) (j : Fin 1024), r (ix2 k (⟨3072 + j.val, by omega⟩ : Fin 4096)) = A.Ro (ix2 j k)
  bz : ∀ (j : Fin 1024), b (ix2 (0 : Fin 1) (⟨j.val, by omega⟩ : Fin 4096)) = A.bz (ix1 j) + A.az (ix1 j)
  bi : ∀ (j : Fin 1024), b (ix2 (0 : Fin 1) (⟨1024 + j.val, by omega⟩ : Fin 4096)) = A.bi (ix1 j) + A.ai (ix1 j)
  bf : ∀ (j : Fin 1024), b (ix2 (0 : Fin 1) (⟨2048 + j.val, by omega⟩ : Fin 4096)) = A.bf (ix1 j) + A.af (ix1 j)
  bo : ∀ (j : Fin 1024), b (ix2 (0 : Fin 1) (⟨3072 + j.val, by omega⟩ : Fin 4096)) = A.bo (ix1 j) + A.ao (ix1 j)

/-- Band z of the block's pre-activation is gate z's pre-activation on the point's rows. -/
theorem preactZ {A : Args} {row : Fin 256 → Fin 16384} {x : Vec Ideal S256x512 .f32} {h cp np : Vec Ideal S256x1024 .f32} {w : Vec Ideal S512x4096 .bf16} {r : Vec Ideal S1024x4096 .bf16} {b : Vec Ideal S1x4096 .f32}
    (S : Sees A row x h cp np w r b) (p : Fin 256) (j : Fin 1024) :
    preact x h w r b p ⟨j.val, by omega⟩ = A.preZ (row p) j := by
  unfold preact Args.preZ pre
  refine congrArg₂ (· + ·) (congrArg₂ (· + ·) (Finset.sum_congr rfl fun k _ => ?_) (Finset.sum_congr rfl fun k _ => ?_)) ?_
  · rw [S.x_eq, S.wz]
  · rw [S.h_eq, S.rz]
  · exact S.bz j

/-- Band i of the block's pre-activation is gate i's pre-activation on the point's rows. -/
theorem preactI {A : Args} {row : Fin 256 → Fin 16384} {x : Vec Ideal S256x512 .f32} {h cp np : Vec Ideal S256x1024 .f32} {w : Vec Ideal S512x4096 .bf16} {r : Vec Ideal S1024x4096 .bf16} {b : Vec Ideal S1x4096 .f32}
    (S : Sees A row x h cp np w r b) (p : Fin 256) (j : Fin 1024) :
    preact x h w r b p ⟨1024 + j.val, by omega⟩ = A.preI (row p) j := by
  unfold preact Args.preI pre
  refine congrArg₂ (· + ·) (congrArg₂ (· + ·) (Finset.sum_congr rfl fun k _ => ?_) (Finset.sum_congr rfl fun k _ => ?_)) ?_
  · rw [S.x_eq, S.wi]
  · rw [S.h_eq, S.ri]
  · exact S.bi j

/-- Band f of the block's pre-activation is gate f's pre-activation on the point's rows. -/
theorem preactF {A : Args} {row : Fin 256 → Fin 16384} {x : Vec Ideal S256x512 .f32} {h cp np : Vec Ideal S256x1024 .f32} {w : Vec Ideal S512x4096 .bf16} {r : Vec Ideal S1024x4096 .bf16} {b : Vec Ideal S1x4096 .f32}
    (S : Sees A row x h cp np w r b) (p : Fin 256) (j : Fin 1024) :
    preact x h w r b p ⟨2048 + j.val, by omega⟩ = A.preF (row p) j := by
  unfold preact Args.preF pre
  refine congrArg₂ (· + ·) (congrArg₂ (· + ·) (Finset.sum_congr rfl fun k _ => ?_) (Finset.sum_congr rfl fun k _ => ?_)) ?_
  · rw [S.x_eq, S.wf]
  · rw [S.h_eq, S.rf]
  · exact S.bf j

/-- Band o of the block's pre-activation is gate o's pre-activation on the point's rows. -/
theorem preactO {A : Args} {row : Fin 256 → Fin 16384} {x : Vec Ideal S256x512 .f32} {h cp np : Vec Ideal S256x1024 .f32} {w : Vec Ideal S512x4096 .bf16} {r : Vec Ideal S1024x4096 .bf16} {b : Vec Ideal S1x4096 .f32}
    (S : Sees A row x h cp np w r b) (p : Fin 256) (j : Fin 1024) :
    preact x h w r b p ⟨3072 + j.val, by omega⟩ = A.preO (row p) j := by
  unfold preact Args.preO pre
  refine congrArg₂ (· + ·) (congrArg₂ (· + ·) (Finset.sum_congr rfl fun k _ => ?_) (Finset.sum_congr rfl fun k _ => ?_)) ?_
  · rw [S.x_eq, S.wo]
  · rw [S.h_eq, S.ro]
  · exact S.bo j

/-- The stored cell block is the specification's new cell state on the point's rows. -/
theorem cell_point {A : Args} {row : Fin 256 → Fin 16384} {x : Vec Ideal S256x512 .f32} {h cp np : Vec Ideal S256x1024 .f32} {w : Vec Ideal S512x4096 .bf16} {r : Vec Ideal S1024x4096 .bf16} {b : Vec Ideal S1x4096 .f32}
    (S : Sees A row x h cp np w r b) (p : Fin 256) (j : Fin 1024) : k0_pay4 x h w r b cp (ix2 p j) = A.cellAt (row p) j := by
  rw [cell_apply, preactF S, preactI S, preactZ S, S.c_eq]
  rfl

/-- The stored normaliser block is the specification's new normaliser on the point's rows. -/
theorem norm_point {A : Args} {row : Fin 256 → Fin 16384} {x : Vec Ideal S256x512 .f32} {h cp np : Vec Ideal S256x1024 .f32} {w : Vec Ideal S512x4096 .bf16} {r : Vec Ideal S1024x4096 .bf16} {b : Vec Ideal S1x4096 .f32}
    (S : Sees A row x h cp np w r b) (p : Fin 256) (j : Fin 1024) : k0_pay5 x h w r b np (ix2 p j) = A.normAt (row p) j := by
  rw [norm_apply, preactF S, preactI S, S.n_eq]
  rfl

/-- The stored hidden block is the specification's new hidden state on the point's rows. -/
theorem hidden_point {A : Args} {row : Fin 256 → Fin 16384} {x : Vec Ideal S256x512 .f32} {h cp np : Vec Ideal S256x1024 .f32} {w : Vec Ideal S512x4096 .bf16} {r : Vec Ideal S1024x4096 .bf16} {b : Vec Ideal S1x4096 .f32}
    (S : Sees A row x h cp np w r b) (p : Fin 256) (j : Fin 1024) : k0_pay6 x h w r b cp np (ix2 p j) = A.hiddenAt (row p) j := by
  rw [hidden_apply, cell_point S, norm_point S, preactO S]
  rfl

end Cert.KernelIdeal.Point

end
-- ==== Proof.KernelIdealArrays.lean ====
/-
  The three arrays `KernelIdeal` leaves, as functions of its twenty arguments.

  The grid has 64 points. Point t is handed rows 256 t .. 256 t + 255 of x, h_prev, c_prev and n_prev, and the whole
  of the three packed arrays, and writes back rows 256 t .. 256 t + 255 of each result. So block row p of point t is
  batch row 256 t + p; by the packing, column 1024 g + j of a packed array belongs to gate g; hence what the point
  writes at (p, j) is the cell step's value at batch row 256 t + p and unit j. Every batch row r lies in exactly the
  block of point r / 256, so the 64 blocks tile each result array, and the array ends holding the cell step's
  `cell`, `norm` and `hidden` of the arguments, entry by entry.
-/
import proofs.«142605_j28226525070218_1_alg».proof.Proof.KernelIdealRun
import proofs.«142605_j28226525070218_1_alg».proof.Proof.KernelIdealPacked
import proofs.«142605_j28226525070218_1_alg».proof.Proof.KernelIdealPoint
import proofs.«142605_j28226525070218_1_alg».proof.Proof.CellStep

set_option maxRecDepth 16384

noncomputable section

namespace Cert.KernelIdeal.Arrays

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Entry Cert.KernelIdeal.Body Cert.KernelIdeal.Run
open Cert.KernelIdeal.Packed Cert.KernelIdeal.Point Cert.CellStep

variable (m : (ℓ : Loc nD τ sig) → Buf (Elt Ideal) ℓ) (ρ : Dev nD → PrngReg)

/-- The twenty arguments on core `c`, as launched. -/
def args (c : Dev nD) : Args :=
  Args.mk (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))

/-! ## Which block each point sees -/

/-- The printed index maps over the grid: the four row windows and the three result windows are at block t along the
    rows, the three packed windows stay at block 0. -/
theorem block_index : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

theorem point_lt (t : Fin cfg0.N) : t.val < 64 := by
  have h1 := t.isLt
  have h2 : cfg0.N = 64 := N_0
  omega

/-- Block row p of point t is batch row 256 t + p. -/
def rowOf (t : Fin cfg0.N) (p : Fin 256) : Fin 16384 :=
  ⟨256 * t.val + p.val, by have := point_lt t; have := p.isLt; omega⟩

theorem x_block (c : Dev nD) (t : Fin cfg0.N) (p : Fin 256) (k : Fin 512) :
    blockAt m c 0 t (ix2 p k) = (args m c).x (ix2 (rowOf t p) k) := by
  obtain ⟨⟨e0, e1⟩, -⟩ := block_index t
  unfold blockAt
  show atEntry m c main_arg0 (((cfg0.win 0).blk t).view.emb (ix2 p k)) = _
  rw [atEntry_of_unwritten m c main_arg0 (by decide)]
  refine congrArg (m ((c : Thread nD τ).loc main_arg0) : FVec Ideal S16384x512 .f32) (funext fun a => Fin.ext ?_)
  match a with
  | ⟨0, _⟩ => show win0_0.index t (0 : Fin 2) * 256 + 1 * p.val = 256 * t.val + p.val; omega
  | ⟨1, _⟩ => show win0_0.index t (1 : Fin 2) * 512 + 1 * k.val = k.val; omega

theorem h_block (c : Dev nD) (t : Fin cfg0.N) (p : Fin 256) (k : Fin 1024) :
    blockAt m c 1 t (ix2 p k) = (args m c).h (ix2 (rowOf t p) k) := by
  obtain ⟨-, ⟨e0, e1⟩, -⟩ := block_index t
  unfold blockAt
  show atEntry m c main_arg3 (((cfg0.win 1).blk t).view.emb (ix2 p k)) = _
  rw [atEntry_of_unwritten m c main_arg3 (by decide)]
  refine congrArg (m ((c : Thread nD τ).loc main_arg3) : FVec Ideal S16384x1024 .f32) (funext fun a => Fin.ext ?_)
  match a with
  | ⟨0, _⟩ => show win0_1.index t (0 : Fin 2) * 256 + 1 * p.val = 256 * t.val + p.val; omega
  | ⟨1, _⟩ => show win0_1.index t (1 : Fin 2) * 1024 + 1 * k.val = k.val; omega

theorem c_block (c : Dev nD) (t : Fin cfg0.N) (p : Fin 256) (j : Fin 1024) :
    blockAt m c 2 t (ix2 p j) = (args m c).c (ix2 (rowOf t p) j) := by
  obtain ⟨-, -, ⟨e0, e1⟩, -⟩ := block_index t
  unfold blockAt
  show atEntry m c main_arg1 (((cfg0.win 2).blk t).view.emb (ix2 p j)) = _
  rw [atEntry_of_unwritten m c main_arg1 (by decide)]
  refine congrArg (m ((c : Thread nD τ).loc main_arg1) : FVec Ideal S16384x1024 .f32) (funext fun a => Fin.ext ?_)
  match a with
  | ⟨0, _⟩ => show win0_2.index t (0 : Fin 2) * 256 + 1 * p.val = 256 * t.val + p.val; omega
  | ⟨1, _⟩ => show win0_2.index t (1 : Fin 2) * 1024 + 1 * j.val = j.val; omega

theorem n_block (c : Dev nD) (t : Fin cfg0.N) (p : Fin 256) (j : Fin 1024) :
    blockAt m c 3 t (ix2 p j) = (args m c).n (ix2 (rowOf t p) j) := by
  obtain ⟨-, -, -, ⟨e0, e1⟩, -⟩ := block_index t
  unfold blockAt
  show atEntry m c main_arg2 (((cfg0.win 3).blk t).view.emb (ix2 p j)) = _
  rw [atEntry_of_unwritten m c main_arg2 (by decide)]
  refine congrArg (m ((c : Thread nD τ).loc main_arg2) : FVec Ideal S16384x1024 .f32) (funext fun a => Fin.ext ?_)
  match a with
  | ⟨0, _⟩ => show win0_3.index t (0 : Fin 2) * 256 + 1 * p.val = 256 * t.val + p.val; omega
  | ⟨1, _⟩ => show win0_3.index t (1 : Fin 2) * 1024 + 1 * j.val = j.val; omega

theorem w_block (c : Dev nD) (t : Fin cfg0.N) (k : Fin 512) (q : Fin 4096) :
    blockAt m c 4 t (ix2 k q) = (atEntry m c main_v5 : FVec Ideal S512x4096 .bf16) (ix2 k q) := by
  obtain ⟨-, -, -, -, ⟨e0, e1⟩, -⟩ := block_index t
  unfold blockAt
  show (atEntry m c main_v5 : FVec Ideal S512x4096 .bf16) (((cfg0.win 4).blk t).view.emb (ix2 k q)) = _
  refine congrArg (atEntry m c main_v5 : FVec Ideal S512x4096 .bf16) (funext fun a => Fin.ext ?_)
  match a with
  | ⟨0, _⟩ => show win0_4.index t (0 : Fin 2) * 512 + 1 * k.val = k.val; omega
  | ⟨1, _⟩ => show win0_4.index t (1 : Fin 2) * 4096 + 1 * q.val = q.val; omega

theorem r_block (c : Dev nD) (t : Fin cfg0.N) (k : Fin 1024) (q : Fin 4096) :
    blockAt m c 5 t (ix2 k q) = (atEntry m c main_v11 : FVec Ideal S1024x4096 .bf16) (ix2 k q) := by
  obtain ⟨-, -, -, -, -, ⟨e0, e1⟩, -⟩ := block_index t
  unfold blockAt
  show (atEntry m c main_v11 : FVec Ideal S1024x4096 .bf16) (((cfg0.win 5).blk t).view.emb (ix2 k q)) = _
  refine congrArg (atEntry m c main_v11 : FVec Ideal S1024x4096 .bf16) (funext fun a => Fin.ext ?_)
  match a with
  | ⟨0, _⟩ => show win0_5.index t (0 : Fin 2) * 1024 + 1 * k.val = k.val; omega
  | ⟨1, _⟩ => show win0_5.index t (1 : Fin 2) * 4096 + 1 * q.val = q.val; omega

theorem b_block (c : Dev nD) (t : Fin cfg0.N) (q : Fin 4096) :
    blockAt m c 6 t (ix2 (0 : Fin 1) q) = (atEntry m c main_v17 : FVec Ideal S1x4096 .f32) (ix2 (0 : Fin 1) q) := by
  obtain ⟨-, -, -, -, -, -, ⟨e0, e1⟩, -⟩ := block_index t
  unfold blockAt
  show (atEntry m c main_v17 : FVec Ideal S1x4096 .f32) (((cfg0.win 6).blk t).view.emb (ix2 (0 : Fin 1) q)) = _
  refine congrArg (atEntry m c main_v17 : FVec Ideal S1x4096 .f32) (funext fun a => Fin.ext ?_)
  match a with
  | ⟨0, _⟩ => show win0_6.index t (0 : Fin 2) * 1 + 1 * 0 = 0; omega
  | ⟨1, _⟩ => show win0_6.index t (1 : Fin 2) * 4096 + 1 * q.val = q.val; omega

/-- The seven blocks of point t are rows 256 t .. of the batch arrays and the packed gates. -/
theorem sees (c : Dev nD) (t : Fin cfg0.N) :
    Sees (args m c) (rowOf t) (blockAt m c 0 t) (blockAt m c 1 t) (blockAt m c 2 t) (blockAt m c 3 t)
      (blockAt m c 4 t) (blockAt m c 5 t) (blockAt m c 6 t) where
  x_eq := x_block m c t
  h_eq := h_block m c t
  c_eq := c_block m c t
  n_eq := n_block m c t
  wz := fun k j => (w_block m c t k _).trans (packedInput_apply m c 0 k j _ (by simp))
  wi := fun k j => (w_block m c t k _).trans (packedInput_apply m c 1 k j _ (by simp))
  wf := fun k j => (w_block m c t k _).trans (packedInput_apply m c 2 k j _ (by simp))
  wo := fun k j => (w_block m c t k _).trans (packedInput_apply m c 3 k j _ (by simp))
  rz := fun k j => (r_block m c t k _).trans (packedRecurrent_apply m c 0 k j _ (by simp))
  ri := fun k j => (r_block m c t k _).trans (packedRecurrent_apply m c 1 k j _ (by simp))
  rf := fun k j => (r_block m c t k _).trans (packedRecurrent_apply m c 2 k j _ (by simp))
  ro := fun k j => (r_block m c t k _).trans (packedRecurrent_apply m c 3 k j _ (by simp))
  bz := fun j => (b_block m c t _).trans (packedBias_apply m c 0 j _ (by simp))
  bi := fun j => (b_block m c t _).trans (packedBias_apply m c 1 j _ (by simp))
  bf := fun j => (b_block m c t _).trans (packedBias_apply m c 2 j _ (by simp))
  bo := fun j => (b_block m c t _).trans (packedBias_apply m c 3 j _ (by simp))

/-! ## What each point writes back -/

theorem origin : (![0, 0] : Fin 2 → Nat) = fun _ => 0 := funext fun a => by fin_cases a <;> rfl

theorem cell_written (c : Dev nD) (t : Fin cfg0.N) :
    (dats m 0 c).flushed 7 t = ((cfg0.win 7).blk t).view.read (Elt Ideal) ((args m c).cell) := by
  obtain ⟨-, -, -, -, -, -, -, ⟨e0, e1⟩, -⟩ := block_index t
  show (cfg0.win 7).cut (grid0.coords t) ((dats m 0 c).after 7 t) = _
  rw [after_7]
  unfold cellBlock
  rw [View.canon_unit_zero origin]
  simp only [View.ld_unit_zero (S := S256x512) origin, View.ld_unit_zero (S := S256x1024) origin,
    View.ld_unit_zero (S := S512x4096) origin, View.ld_unit_zero (S := S1024x4096) origin,
    View.ld_unit_zero (S := S1x4096) origin]
  funext y
  obtain ⟨p, j, rfl⟩ : ∃ (p : Fin 256) (j : Fin 1024), y = ix2 p j := ⟨y 0, y 1, eq_ix2 y⟩
  refine (cell_point (sees m c t) p j).trans ?_
  show (args m c).cell (ix2 (rowOf t p) j) = (args m c).cell (((cfg0.win 7).blk t).view.emb (ix2 p j))
  refine congrArg (args m c).cell (funext fun a => Fin.ext ?_)
  match a with
  | ⟨0, _⟩ => show 256 * t.val + p.val = win0_7.index t (0 : Fin 2) * 256 + 1 * p.val; omega
  | ⟨1, _⟩ => show j.val = win0_7.index t (1 : Fin 2) * 1024 + 1 * j.val; omega

theorem norm_written (c : Dev nD) (t : Fin cfg0.N) :
    (dats m 0 c).flushed 8 t = ((cfg0.win 8).blk t).view.read (Elt Ideal) ((args m c).norm) := by
  obtain ⟨-, -, -, -, -, -, -, -, ⟨e0, e1⟩, -⟩ := block_index t
  show (cfg0.win 8).cut (grid0.coords t) ((dats m 0 c).after 8 t) = _
  rw [after_8]
  unfold normBlock
  rw [View.canon_unit_zero origin]
  simp only [View.ld_unit_zero (S := S256x512) origin, View.ld_unit_zero (S := S256x1024) origin,
    View.ld_unit_zero (S := S512x4096) origin, View.ld_unit_zero (S := S1024x4096) origin,
    View.ld_unit_zero (S := S1x4096) origin]
  funext y
  obtain ⟨p, j, rfl⟩ : ∃ (p : Fin 256) (j : Fin 1024), y = ix2 p j := ⟨y 0, y 1, eq_ix2 y⟩
  refine (norm_point (sees m c t) p j).trans ?_
  show (args m c).norm (ix2 (rowOf t p) j) = (args m c).norm (((cfg0.win 8).blk t).view.emb (ix2 p j))
  refine congrArg (args m c).norm (funext fun a => Fin.ext ?_)
  match a with
  | ⟨0, _⟩ => show 256 * t.val + p.val = win0_8.index t (0 : Fin 2) * 256 + 1 * p.val; omega
  | ⟨1, _⟩ => show j.val = win0_8.index t (1 : Fin 2) * 1024 + 1 * j.val; omega

theorem hidden_written (c : Dev nD) (t : Fin cfg0.N) :
    (dats m 0 c).flushed 9 t = ((cfg0.win 9).blk t).view.read (Elt Ideal) ((args m c).hidden) := by
  obtain ⟨-, -, -, -, -, -, -, -, -, ⟨e0, e1⟩⟩ := block_index t
  show (cfg0.win 9).cut (grid0.coords t) ((dats m 0 c).after 9 t) = _
  rw [after_9]
  unfold hiddenBlock
  rw [View.canon_unit_zero origin]
  simp only [View.ld_unit_zero (S := S256x512) origin, View.ld_unit_zero (S := S256x1024) origin,
    View.ld_unit_zero (S := S512x4096) origin, View.ld_unit_zero (S := S1024x4096) origin,
    View.ld_unit_zero (S := S1x4096) origin]
  funext y
  obtain ⟨p, j, rfl⟩ : ∃ (p : Fin 256) (j : Fin 1024), y = ix2 p j := ⟨y 0, y 1, eq_ix2 y⟩
  refine (hidden_point (sees m c t) p j).trans ?_
  show (args m c).hidden (ix2 (rowOf t p) j) = (args m c).hidden (((cfg0.win 9).blk t).view.emb (ix2 p j))
  refine congrArg (args m c).hidden (funext fun a => Fin.ext ?_)
  match a with
  | ⟨0, _⟩ => show 256 * t.val + p.val = win0_9.index t (0 : Fin 2) * 256 + 1 * p.val; omega
  | ⟨1, _⟩ => show j.val = win0_9.index t (1 : Fin 2) * 1024 + 1 * j.val; omega

/-! ## The blocks tile each result array

Batch row r lies in the block of point r / 256 and in no other, and every column lies in the one column block; so
every entry of a result array is written back by some point, and the array ends as the cell step's function. -/

theorem in_cell_block (t : Fin cfg0.N) (i : S16384x1024.Idx) :
    i ∈ ((cfg0.win 7).blk t).view.set ↔ ∀ a : Fin 2, win0_7.index t a * S256x1024.size a ≤ (i a).val
      ∧ (i a).val < win0_7.index t a * S256x1024.size a + S256x1024.size a := by
  show i ∈ ((View.whole main_v18_0).slice (win0_7.rect t)).set ↔ _
  rw [View.set_slice_whole, Rect.mem_set_unit]
  exact Iff.rfl

theorem cell_cover (i : S16384x1024.Idx) :
    ∃ t : Fin cfg0.N, (cfg0.win 7).flush t = true ∧ i ∈ ((cfg0.win 7).blk t).view.set := by
  have hi0 : (i 0).val < 16384 := (i 0).isLt
  have hi1 : (i 1).val < 1024 := (i 1).isLt
  have hN : cfg0.N = 64 := N_0
  have ht : (i 0).val / 256 < cfg0.N := by omega
  obtain ⟨-, -, -, -, -, -, -, ⟨e0, e1⟩, -⟩ := block_index ⟨(i 0).val / 256, ht⟩
  refine ⟨⟨(i 0).val / 256, ht⟩, flush0_7 _, ?_⟩
  rw [in_cell_block]
  intro a
  match a with
  | ⟨0, _⟩ =>
    show win0_7.index ⟨(i 0).val / 256, ht⟩ (0 : Fin 2) * 256 ≤ (i 0).val
      ∧ (i 0).val < win0_7.index ⟨(i 0).val / 256, ht⟩ (0 : Fin 2) * 256 + 256
    have e0' : win0_7.index ⟨(i 0).val / 256, ht⟩ (0 : Fin 2) = (i 0).val / 256 := e0
    omega
  | ⟨1, _⟩ =>
    show win0_7.index ⟨(i 0).val / 256, ht⟩ (1 : Fin 2) * 1024 ≤ (i 1).val
      ∧ (i 1).val < win0_7.index ⟨(i 0).val / 256, ht⟩ (1 : Fin 2) * 1024 + 1024
    omega

/-- The cell array after the run. -/
theorem cell_final (c : Dev nD) : (dats m 0 c).arrAt 7 cfg0.N = (args m c).cell :=
  (dats m 0 c).arrAt_eq_of_cover 7 ((args m c).cell) (fun t _ => cell_written m c t) cell_cover

theorem in_norm_block (t : Fin cfg0.N) (i : S16384x1024.Idx) :
    i ∈ ((cfg0.win 8).blk t).view.set ↔ ∀ a : Fin 2, win0_8.index t a * S256x1024.size a ≤ (i a).val
      ∧ (i a).val < win0_8.index t a * S256x1024.size a + S256x1024.size a := by
  show i ∈ ((View.whole main_v18_1).slice (win0_8.rect t)).set ↔ _
  rw [View.set_slice_whole, Rect.mem_set_unit]
  exact Iff.rfl

theorem norm_cover (i : S16384x1024.Idx) :
    ∃ t : Fin cfg0.N, (cfg0.win 8).flush t = true ∧ i ∈ ((cfg0.win 8).blk t).view.set := by
  have hi0 : (i 0).val < 16384 := (i 0).isLt
  have hi1 : (i 1).val < 1024 := (i 1).isLt
  have hN : cfg0.N = 64 := N_0
  have ht : (i 0).val / 256 < cfg0.N := by omega
  obtain ⟨-, -, -, -, -, -, -, -, ⟨e0, e1⟩, -⟩ := block_index ⟨(i 0).val / 256, ht⟩
  refine ⟨⟨(i 0).val / 256, ht⟩, flush0_8 _, ?_⟩
  rw [in_norm_block]
  intro a
  match a with
  | ⟨0, _⟩ =>
    show win0_8.index ⟨(i 0).val / 256, ht⟩ (0 : Fin 2) * 256 ≤ (i 0).val
      ∧ (i 0).val < win0_8.index ⟨(i 0).val / 256, ht⟩ (0 : Fin 2) * 256 + 256
    have e0' : win0_8.index ⟨(i 0).val / 256, ht⟩ (0 : Fin 2) = (i 0).val / 256 := e0
    omega
  | ⟨1, _⟩ =>
    show win0_8.index ⟨(i 0).val / 256, ht⟩ (1 : Fin 2) * 1024 ≤ (i 1).val
      ∧ (i 1).val < win0_8.index ⟨(i 0).val / 256, ht⟩ (1 : Fin 2) * 1024 + 1024
    omega

/-- The norm array after the run. -/
theorem norm_final (c : Dev nD) : (dats m 0 c).arrAt 8 cfg0.N = (args m c).norm :=
  (dats m 0 c).arrAt_eq_of_cover 8 ((args m c).norm) (fun t _ => norm_written m c t) norm_cover

theorem in_hidden_block (t : Fin cfg0.N) (i : S16384x1024.Idx) :
    i ∈ ((cfg0.win 9).blk t).view.set ↔ ∀ a : Fin 2, win0_9.index t a * S256x1024.size a ≤ (i a).val
      ∧ (i a).val < win0_9.index t a * S256x1024.size a + S256x1024.size a := by
  show i ∈ ((View.whole main_v18_2).slice (win0_9.rect t)).set ↔ _
  rw [View.set_slice_whole, Rect.mem_set_unit]
  exact Iff.rfl

theorem hidden_cover (i : S16384x1024.Idx) :
    ∃ t : Fin cfg0.N, (cfg0.win 9).flush t = true ∧ i ∈ ((cfg0.win 9).blk t).view.set := by
  have hi0 : (i 0).val < 16384 := (i 0).isLt
  have hi1 : (i 1).val < 1024 := (i 1).isLt
  have hN : cfg0.N = 64 := N_0
  have ht : (i 0).val / 256 < cfg0.N := by omega
  obtain ⟨-, -, -, -, -, -, -, -, -, ⟨e0, e1⟩⟩ := block_index ⟨(i 0).val / 256, ht⟩
  refine ⟨⟨(i 0).val / 256, ht⟩, flush0_9 _, ?_⟩
  rw [in_hidden_block]
  intro a
  match a with
  | ⟨0, _⟩ =>
    show win0_9.index ⟨(i 0).val / 256, ht⟩ (0 : Fin 2) * 256 ≤ (i 0).val
      ∧ (i 0).val < win0_9.index ⟨(i 0).val / 256, ht⟩ (0 : Fin 2) * 256 + 256
    have e0' : win0_9.index ⟨(i 0).val / 256, ht⟩ (0 : Fin 2) = (i 0).val / 256 := e0
    omega
  | ⟨1, _⟩ =>
    show win0_9.index ⟨(i 0).val / 256, ht⟩ (1 : Fin 2) * 1024 ≤ (i 1).val
      ∧ (i 1).val < win0_9.index ⟨(i 0).val / 256, ht⟩ (1 : Fin 2) * 1024 + 1024
    omega

/-- The hidden array after the run. -/
theorem hidden_final (c : Dev nD) : (dats m 0 c).arrAt 9 cfg0.N = (args m c).hidden :=
  (dats m 0 c).arrAt_eq_of_cover 9 ((args m c).hidden) (fun t _ => hidden_written m c t) hidden_cover

end Cert.KernelIdeal.Arrays

end
-- ==== Proof.ReferenceCellStep.lean ====
/-
  The reference program's three results are the cell step of the specification, entry by entry.

  The reference stacks the four gates' arrays along a new leading axis of length four -- the input weights into
  W : 4 x 1024 x 512, the recurrent weights into R : 4 x 1024 x 1024, and the sums of each gate's two bias vectors into
  B : 4 x 1024 -- and computes all four pre-activations at once,

      P(g, b, j) = ( sum_k W(g, j, k) x(b, k)  +  sum_k R(g, j, k) h(b, k) )  +  B(g, j),

  each contraction being formed with the axes in the order (g, j, b) and then transposed to (g, b, j). Slab g of a stack
  is the g-th array that went into it, so P(g, b, j) is gate g's pre-activation except that every product under the two
  sums has the weight as its left factor where the specification has the row as its left factor. Multiplication of
  extended reals is commutative, so the products agree term by term and the sums agree; nothing is distributed,
  cancelled or reassociated, and no finiteness of the arguments is used.

  The four slabs are then sliced out, each a 1 x 16384 x 1024 array reshaped to 16384 x 1024. The reshape reads the
  source at the row-major position of the target index; with the leading axis of length one that position is
  b * 1024 + j with j < 1024, whose quotient and remainder by 1024 are b and j again.

  The rest is pointwise:  z = tanh P(0),  i = exp P(1),  f = 1 / (1 + exp (-P(2))),  o = 1 / (1 + exp (-P(3))),  where
  the constant is the float word of 1.0, which denotes the real number one, so f and o are the logistic function by
  its definition; and  cell = f * c + i * z,  norm = f * n + i,  hidden = o * (cell / norm),  exactly the
  specification's three formulas.

  The file goes in that order: the stacks read at a slab; the pre-activation array read at (g, b, j), one lemma per gate;
  the slices and reshapes; the gates; the three results at an index; the three results as arrays.
-/
import proofs.«142605_j28226525070218_1_alg».proof.Proof.Gen.ReferenceIdeal.Read
import proofs.«142605_j28226525070218_1_alg».proof.Proof.CellStep

noncomputable section

namespace Cert.ReferenceIdeal.CellStep

open Cert.ReferenceIdeal Cert.ReferenceIdeal.Read Cert.CellStep
open Idealize.ShloMosaic Idealize.ShloMosaic.ValueIdx
open scoped BigOperators

section
variable (x0 : (⟨S16384x512, .f32⟩ : BufTy).Contents (Elt Ideal)) (x1 x2 x3 : (⟨S16384x1024, .f32⟩ : BufTy).Contents (Elt Ideal))
  (x4 x5 x6 x7 : (⟨S1024x512, .f32⟩ : BufTy).Contents (Elt Ideal)) (x8 x9 x10 x11 : (⟨S1024, .f32⟩ : BufTy).Contents (Elt Ideal))
  (x12 x13 x14 x15 : (⟨S1024x1024, .f32⟩ : BufTy).Contents (Elt Ideal)) (x16 x17 x18 x19 : (⟨S1024, .f32⟩ : BufTy).Contents (Elt Ideal))

/-- Slab `0` of the stacked input weights is gate z's input weight. -/
theorem inputWeightZ_at (j : Fin 1024) (k : Fin 512) :
    val_main_v4 (F := Ideal) x4 x5 x6 x7 (ix3 (0 : Fin 4) j k) = x4 (ix2 j k) := by
  unfold val_main_v4
  refine (concatenate_apply_piece (0 : Fin S4x1024x512.rank) _ _ (ix3 (0 : Fin 4) j k) 0 (by show 0 < 4; omega) S1x1024x512
    (val_main_v0 (F := Ideal) x4) rfl rfl 0 rfl (ix3 (0 : Fin 1) j k) ?_ ?_).trans ?_
  · intro b hb
    match b with
    | ⟨0, _⟩ => exact absurd rfl hb
    | ⟨1, _⟩ => rfl
    | ⟨2, _⟩ => rfl
  · rfl
  · rw [val_main_v0_apply]
    congr 1
    funext a
    match a with
    | ⟨0, _⟩ => rfl
    | ⟨1, _⟩ => rfl

/-- Slab `0` of the stacked recurrent weights is gate z's recurrent weight. -/
theorem recurrentWeightZ_at (j k : Fin 1024) :
    val_main_v9 (F := Ideal) x12 x13 x14 x15 (ix3 (0 : Fin 4) j k) = x12 (ix2 j k) := by
  unfold val_main_v9
  refine (concatenate_apply_piece (0 : Fin S4x1024x1024.rank) _ _ (ix3 (0 : Fin 4) j k) 0 (by show 0 < 4; omega) S1x1024x1024
    (val_main_v5 (F := Ideal) x12) rfl rfl 0 rfl (ix3 (0 : Fin 1) j k) ?_ ?_).trans ?_
  · intro b hb
    match b with
    | ⟨0, _⟩ => exact absurd rfl hb
    | ⟨1, _⟩ => rfl
    | ⟨2, _⟩ => rfl
  · rfl
  · rw [val_main_v5_apply]
    congr 1
    funext a
    match a with
    | ⟨0, _⟩ => rfl
    | ⟨1, _⟩ => rfl

/-- Row `0` of the stacked biases is the sum of gate z's two bias vectors. -/
theorem biasZ_at (j : Fin 1024) :
    val_main_v18 (F := Ideal) x8 x9 x10 x11 x16 x17 x18 x19 (ix2 (0 : Fin 4) j) = x8 (ix1 j) + x16 (ix1 j) := by
  unfold val_main_v18
  refine (concatenate_apply_piece (0 : Fin S4x1024.rank) _ _ (ix2 (0 : Fin 4) j) 0 (by show 0 < 4; omega) S1x1024
    (val_main_v14 (F := Ideal) x8 x16) rfl rfl 0 rfl (ix2 (0 : Fin 1) j) ?_ ?_).trans ?_
  · intro b hb
    match b with
    | ⟨0, _⟩ => exact absurd rfl hb
    | ⟨1, _⟩ => rfl
  · rfl
  · have e : idx_main_v14 (ix2 (0 : Fin 1) j) = ix1 j := funext fun a => match a with | ⟨0, _⟩ => rfl
    rw [val_main_v14_apply, val_main_v10_apply, Ideal.addf_def, e]

/-- Slab `1` of the stacked input weights is gate i's input weight. -/
theorem inputWeightI_at (j : Fin 1024) (k : Fin 512) :
    val_main_v4 (F := Ideal) x4 x5 x6 x7 (ix3 (1 : Fin 4) j k) = x5 (ix2 j k) := by
  unfold val_main_v4
  refine (concatenate_apply_piece (0 : Fin S4x1024x512.rank) _ _ (ix3 (1 : Fin 4) j k) 1 (by show 1 < 4; omega) S1x1024x512
    (val_main_v1 (F := Ideal) x5) rfl rfl 1 rfl (ix3 (0 : Fin 1) j k) ?_ ?_).trans ?_
  · intro b hb
    match b with
    | ⟨0, _⟩ => exact absurd rfl hb
    | ⟨1, _⟩ => rfl
    | ⟨2, _⟩ => rfl
  · rfl
  · rw [val_main_v1_apply]
    congr 1
    funext a
    match a with
    | ⟨0, _⟩ => rfl
    | ⟨1, _⟩ => rfl

/-- Slab `1` of the stacked recurrent weights is gate i's recurrent weight. -/
theorem recurrentWeightI_at (j k : Fin 1024) :
    val_main_v9 (F := Ideal) x12 x13 x14 x15 (ix3 (1 : Fin 4) j k) = x13 (ix2 j k) := by
  unfold val_main_v9
  refine (concatenate_apply_piece (0 : Fin S4x1024x1024.rank) _ _ (ix3 (1 : Fin 4) j k) 1 (by show 1 < 4; omega) S1x1024x1024
    (val_main_v6 (F := Ideal) x13) rfl rfl 1 rfl (ix3 (0 : Fin 1) j k) ?_ ?_).trans ?_
  · intro b hb
    match b with
    | ⟨0, _⟩ => exact absurd rfl hb
    | ⟨1, _⟩ => rfl
    | ⟨2, _⟩ => rfl
  · rfl
  · rw [val_main_v6_apply]
    congr 1
    funext a
    match a with
    | ⟨0, _⟩ => rfl
    | ⟨1, _⟩ => rfl

/-- Row `1` of the stacked biases is the sum of gate i's two bias vectors. -/
theorem biasI_at (j : Fin 1024) :
    val_main_v18 (F := Ideal) x8 x9 x10 x11 x16 x17 x18 x19 (ix2 (1 : Fin 4) j) = x9 (ix1 j) + x17 (ix1 j) := by
  unfold val_main_v18
  refine (concatenate_apply_piece (0 : Fin S4x1024.rank) _ _ (ix2 (1 : Fin 4) j) 1 (by show 1 < 4; omega) S1x1024
    (val_main_v15 (F := Ideal) x9 x17) rfl rfl 1 rfl (ix2 (0 : Fin 1) j) ?_ ?_).trans ?_
  · intro b hb
    match b with
    | ⟨0, _⟩ => exact absurd rfl hb
    | ⟨1, _⟩ => rfl
  · rfl
  · have e : idx_main_v15 (ix2 (0 : Fin 1) j) = ix1 j := funext fun a => match a with | ⟨0, _⟩ => rfl
    rw [val_main_v15_apply, val_main_v11_apply, Ideal.addf_def, e]

/-- Slab `2` of the stacked input weights is gate f's input weight. -/
theorem inputWeightF_at (j : Fin 1024) (k : Fin 512) :
    val_main_v4 (F := Ideal) x4 x5 x6 x7 (ix3 (2 : Fin 4) j k) = x6 (ix2 j k) := by
  unfold val_main_v4
  refine (concatenate_apply_piece (0 : Fin S4x1024x512.rank) _ _ (ix3 (2 : Fin 4) j k) 2 (by show 2 < 4; omega) S1x1024x512
    (val_main_v2 (F := Ideal) x6) rfl rfl 2 rfl (ix3 (0 : Fin 1) j k) ?_ ?_).trans ?_
  · intro b hb
    match b with
    | ⟨0, _⟩ => exact absurd rfl hb
    | ⟨1, _⟩ => rfl
    | ⟨2, _⟩ => rfl
  · rfl
  · rw [val_main_v2_apply]
    congr 1
    funext a
    match a with
    | ⟨0, _⟩ => rfl
    | ⟨1, _⟩ => rfl

/-- Slab `2` of the stacked recurrent weights is gate f's recurrent weight. -/
theorem recurrentWeightF_at (j k : Fin 1024) :
    val_main_v9 (F := Ideal) x12 x13 x14 x15 (ix3 (2 : Fin 4) j k) = x14 (ix2 j k) := by
  unfold val_main_v9
  refine (concatenate_apply_piece (0 : Fin S4x1024x1024.rank) _ _ (ix3 (2 : Fin 4) j k) 2 (by show 2 < 4; omega) S1x1024x1024
    (val_main_v7 (F := Ideal) x14) rfl rfl 2 rfl (ix3 (0 : Fin 1) j k) ?_ ?_).trans ?_
  · intro b hb
    match b with
    | ⟨0, _⟩ => exact absurd rfl hb
    | ⟨1, _⟩ => rfl
    | ⟨2, _⟩ => rfl
  · rfl
  · rw [val_main_v7_apply]
    congr 1
    funext a
    match a with
    | ⟨0, _⟩ => rfl
    | ⟨1, _⟩ => rfl

/-- Row `2` of the stacked biases is the sum of gate f's two bias vectors. -/
theorem biasF_at (j : Fin 1024) :
    val_main_v18 (F := Ideal) x8 x9 x10 x11 x16 x17 x18 x19 (ix2 (2 : Fin 4) j) = x10 (ix1 j) + x18 (ix1 j) := by
  unfold val_main_v18
  refine (concatenate_apply_piece (0 : Fin S4x1024.rank) _ _ (ix2 (2 : Fin 4) j) 2 (by show 2 < 4; omega) S1x1024
    (val_main_v16 (F := Ideal) x10 x18) rfl rfl 2 rfl (ix2 (0 : Fin 1) j) ?_ ?_).trans ?_
  · intro b hb
    match b with
    | ⟨0, _⟩ => exact absurd rfl hb
    | ⟨1, _⟩ => rfl
  · rfl
  · have e : idx_main_v16 (ix2 (0 : Fin 1) j) = ix1 j := funext fun a => match a with | ⟨0, _⟩ => rfl
    rw [val_main_v16_apply, val_main_v12_apply, Ideal.addf_def, e]

/-- Slab `3` of the stacked input weights is gate o's input weight. -/
theorem inputWeightO_at (j : Fin 1024) (k : Fin 512) :
    val_main_v4 (F := Ideal) x4 x5 x6 x7 (ix3 (3 : Fin 4) j k) = x7 (ix2 j k) := by
  unfold val_main_v4
  refine (concatenate_apply_piece (0 : Fin S4x1024x512.rank) _ _ (ix3 (3 : Fin 4) j k) 3 (by show 3 < 4; omega) S1x1024x512
    (val_main_v3 (F := Ideal) x7) rfl rfl 3 rfl (ix3 (0 : Fin 1) j k) ?_ ?_).trans ?_
  · intro b hb
    match b with
    | ⟨0, _⟩ => exact absurd rfl hb
    | ⟨1, _⟩ => rfl
    | ⟨2, _⟩ => rfl
  · rfl
  · rw [val_main_v3_apply]
    congr 1
    funext a
    match a with
    | ⟨0, _⟩ => rfl
    | ⟨1, _⟩ => rfl

/-- Slab `3` of the stacked recurrent weights is gate o's recurrent weight. -/
theorem recurrentWeightO_at (j k : Fin 1024) :
    val_main_v9 (F := Ideal) x12 x13 x14 x15 (ix3 (3 : Fin 4) j k) = x15 (ix2 j k) := by
  unfold val_main_v9
  refine (concatenate_apply_piece (0 : Fin S4x1024x1024.rank) _ _ (ix3 (3 : Fin 4) j k) 3 (by show 3 < 4; omega) S1x1024x1024
    (val_main_v8 (F := Ideal) x15) rfl rfl 3 rfl (ix3 (0 : Fin 1) j k) ?_ ?_).trans ?_
  · intro b hb
    match b with
    | ⟨0, _⟩ => exact absurd rfl hb
    | ⟨1, _⟩ => rfl
    | ⟨2, _⟩ => rfl
  · rfl
  · rw [val_main_v8_apply]
    congr 1
    funext a
    match a with
    | ⟨0, _⟩ => rfl
    | ⟨1, _⟩ => rfl

/-- Row `3` of the stacked biases is the sum of gate o's two bias vectors. -/
theorem biasO_at (j : Fin 1024) :
    val_main_v18 (F := Ideal) x8 x9 x10 x11 x16 x17 x18 x19 (ix2 (3 : Fin 4) j) = x11 (ix1 j) + x19 (ix1 j) := by
  unfold val_main_v18
  refine (concatenate_apply_piece (0 : Fin S4x1024.rank) _ _ (ix2 (3 : Fin 4) j) 3 (by show 3 < 4; omega) S1x1024
    (val_main_v17 (F := Ideal) x11 x19) rfl rfl 3 rfl (ix2 (0 : Fin 1) j) ?_ ?_).trans ?_
  · intro b hb
    match b with
    | ⟨0, _⟩ => exact absurd rfl hb
    | ⟨1, _⟩ => rfl
  · rfl
  · have e : idx_main_v17 (ix2 (0 : Fin 1) j) = ix1 j := funext fun a => match a with | ⟨0, _⟩ => rfl
    rw [val_main_v17_apply, val_main_v13_apply, Ideal.addf_def, e]

/-- Slab `0` of the stacked pre-activations, at batch row `b` and unit `j`, is gate z's pre-activation: the two
    contractions have the weight as the left factor, and commuting each product under its sum gives the row as the left factor. -/
theorem preZ_at (b : Fin 16384) (j : Fin 1024) :
    val_main_v26 (F := Ideal) x0 x3 x4 x5 x6 x7 x8 x9 x10 x11 x12 x13 x14 x15 x16 x17 x18 x19 (ix3 (0 : Fin 4) b j)
      = pre x0 x3 x4 x12 x8 x16 b j := by
  have e20 : idx_main_v20 (ix3 (0 : Fin 4) b j) = ix3 (0 : Fin 4) j b :=
    funext fun a => match a with | ⟨0, _⟩ => rfl | ⟨1, _⟩ => rfl | ⟨2, _⟩ => rfl
  have e22 : idx_main_v22 (ix3 (0 : Fin 4) b j) = ix3 (0 : Fin 4) j b :=
    funext fun a => match a with | ⟨0, _⟩ => rfl | ⟨1, _⟩ => rfl | ⟨2, _⟩ => rfl
  have e24 : idx_main_v24 (idx_main_v25 (ix3 (0 : Fin 4) b j)) = ix2 (0 : Fin 4) j :=
    funext fun a => match a with | ⟨0, _⟩ => rfl | ⟨1, _⟩ => rfl
  rw [val_main_v26_apply, val_main_v23_apply, val_main_v20_apply, val_main_v22_apply, val_main_v19_apply, val_main_v21_apply,
    val_main_v25_apply, val_main_v24_apply, e20, e22, e24, biasZ_at, Ideal.addf_def, Ideal.addf_def]
  unfold pre
  congr 2
  · refine Finset.sum_congr rfl fun k _ => ?_
    have el : lidx_main_v19 (ix3 (0 : Fin 4) j b) k = ix3 (0 : Fin 4) j k :=
      funext fun a => match a with | ⟨0, _⟩ => rfl | ⟨1, _⟩ => rfl | ⟨2, _⟩ => rfl
    have er : ridx_main_v19 (ix3 (0 : Fin 4) j b) k = ix2 b k :=
      funext fun a => match a with | ⟨0, _⟩ => rfl | ⟨1, _⟩ => rfl
    rw [el, er, inputWeightZ_at, mul_comm]
  · refine Finset.sum_congr rfl fun k _ => ?_
    have el : lidx_main_v21 (ix3 (0 : Fin 4) j b) k = ix3 (0 : Fin 4) j k :=
      funext fun a => match a with | ⟨0, _⟩ => rfl | ⟨1, _⟩ => rfl | ⟨2, _⟩ => rfl
    have er : ridx_main_v21 (ix3 (0 : Fin 4) j b) k = ix2 b k :=
      funext fun a => match a with | ⟨0, _⟩ => rfl | ⟨1, _⟩ => rfl
    rw [el, er, recurrentWeightZ_at, mul_comm]

/-- Slab `1` of the stacked pre-activations, at batch row `b` and unit `j`, is gate i's pre-activation: the two
    contractions have the weight as the left factor, and commuting each product under its sum gives the row as the left factor. -/
theorem preI_at (b : Fin 16384) (j : Fin 1024) :
    val_main_v26 (F := Ideal) x0 x3 x4 x5 x6 x7 x8 x9 x10 x11 x12 x13 x14 x15 x16 x17 x18 x19 (ix3 (1 : Fin 4) b j)
      = pre x0 x3 x5 x13 x9 x17 b j := by
  have e20 : idx_main_v20 (ix3 (1 : Fin 4) b j) = ix3 (1 : Fin 4) j b :=
    funext fun a => match a with | ⟨0, _⟩ => rfl | ⟨1, _⟩ => rfl | ⟨2, _⟩ => rfl
  have e22 : idx_main_v22 (ix3 (1 : Fin 4) b j) = ix3 (1 : Fin 4) j b :=
    funext fun a => match a with | ⟨0, _⟩ => rfl | ⟨1, _⟩ => rfl | ⟨2, _⟩ => rfl
  have e24 : idx_main_v24 (idx_main_v25 (ix3 (1 : Fin 4) b j)) = ix2 (1 : Fin 4) j :=
    funext fun a => match a with | ⟨0, _⟩ => rfl | ⟨1, _⟩ => rfl
  rw [val_main_v26_apply, val_main_v23_apply, val_main_v20_apply, val_main_v22_apply, val_main_v19_apply, val_main_v21_apply,
    val_main_v25_apply, val_main_v24_apply, e20, e22, e24, biasI_at, Ideal.addf_def, Ideal.addf_def]
  unfold pre
  congr 2
  · refine Finset.sum_congr rfl fun k _ => ?_
    have el : lidx_main_v19 (ix3 (1 : Fin 4) j b) k = ix3 (1 : Fin 4) j k :=
      funext fun a => match a with | ⟨0, _⟩ => rfl | ⟨1, _⟩ => rfl | ⟨2, _⟩ => rfl
    have er : ridx_main_v19 (ix3 (1 : Fin 4) j b) k = ix2 b k :=
      funext fun a => match a with | ⟨0, _⟩ => rfl | ⟨1, _⟩ => rfl
    rw [el, er, inputWeightI_at, mul_comm]
  · refine Finset.sum_congr rfl fun k _ => ?_
    have el : lidx_main_v21 (ix3 (1 : Fin 4) j b) k = ix3 (1 : Fin 4) j k :=
      funext fun a => match a with | ⟨0, _⟩ => rfl | ⟨1, _⟩ => rfl | ⟨2, _⟩ => rfl
    have er : ridx_main_v21 (ix3 (1 : Fin 4) j b) k = ix2 b k :=
      funext fun a => match a with | ⟨0, _⟩ => rfl | ⟨1, _⟩ => rfl
    rw [el, er, recurrentWeightI_at, mul_comm]

/-- Slab `2` of the stacked pre-activations, at batch row `b` and unit `j`, is gate f's pre-activation: the two
    contractions have the weight as the left factor, and commuting each product under its sum gives the row as the left factor. -/
theorem preF_at (b : Fin 16384) (j : Fin 1024) :
    val_main_v26 (F := Ideal) x0 x3 x4 x5 x6 x7 x8 x9 x10 x11 x12 x13 x14 x15 x16 x17 x18 x19 (ix3 (2 : Fin 4) b j)
      = pre x0 x3 x6 x14 x10 x18 b j := by
  have e20 : idx_main_v20 (ix3 (2 : Fin 4) b j) = ix3 (2 : Fin 4) j b :=
    funext fun a => match a with | ⟨0, _⟩ => rfl | ⟨1, _⟩ => rfl | ⟨2, _⟩ => rfl
  have e22 : idx_main_v22 (ix3 (2 : Fin 4) b j) = ix3 (2 : Fin 4) j b :=
    funext fun a => match a with | ⟨0, _⟩ => rfl | ⟨1, _⟩ => rfl | ⟨2, _⟩ => rfl
  have e24 : idx_main_v24 (idx_main_v25 (ix3 (2 : Fin 4) b j)) = ix2 (2 : Fin 4) j :=
    funext fun a => match a with | ⟨0, _⟩ => rfl | ⟨1, _⟩ => rfl
  rw [val_main_v26_apply, val_main_v23_apply, val_main_v20_apply, val_main_v22_apply, val_main_v19_apply, val_main_v21_apply,
    val_main_v25_apply, val_main_v24_apply, e20, e22, e24, biasF_at, Ideal.addf_def, Ideal.addf_def]
  unfold pre
  congr 2
  · refine Finset.sum_congr rfl fun k _ => ?_
    have el : lidx_main_v19 (ix3 (2 : Fin 4) j b) k = ix3 (2 : Fin 4) j k :=
      funext fun a => match a with | ⟨0, _⟩ => rfl | ⟨1, _⟩ => rfl | ⟨2, _⟩ => rfl
    have er : ridx_main_v19 (ix3 (2 : Fin 4) j b) k = ix2 b k :=
      funext fun a => match a with | ⟨0, _⟩ => rfl | ⟨1, _⟩ => rfl
    rw [el, er, inputWeightF_at, mul_comm]
  · refine Finset.sum_congr rfl fun k _ => ?_
    have el : lidx_main_v21 (ix3 (2 : Fin 4) j b) k = ix3 (2 : Fin 4) j k :=
      funext fun a => match a with | ⟨0, _⟩ => rfl | ⟨1, _⟩ => rfl | ⟨2, _⟩ => rfl
    have er : ridx_main_v21 (ix3 (2 : Fin 4) j b) k = ix2 b k :=
      funext fun a => match a with | ⟨0, _⟩ => rfl | ⟨1, _⟩ => rfl
    rw [el, er, recurrentWeightF_at, mul_comm]

/-- Slab `3` of the stacked pre-activations, at batch row `b` and unit `j`, is gate o's pre-activation: the two
    contractions have the weight as the left factor, and commuting each product under its sum gives the row as the left factor. -/
theorem preO_at (b : Fin 16384) (j : Fin 1024) :
    val_main_v26 (F := Ideal) x0 x3 x4 x5 x6 x7 x8 x9 x10 x11 x12 x13 x14 x15 x16 x17 x18 x19 (ix3 (3 : Fin 4) b j)
      = pre x0 x3 x7 x15 x11 x19 b j := by
  have e20 : idx_main_v20 (ix3 (3 : Fin 4) b j) = ix3 (3 : Fin 4) j b :=
    funext fun a => match a with | ⟨0, _⟩ => rfl | ⟨1, _⟩ => rfl | ⟨2, _⟩ => rfl
  have e22 : idx_main_v22 (ix3 (3 : Fin 4) b j) = ix3 (3 : Fin 4) j b :=
    funext fun a => match a with | ⟨0, _⟩ => rfl | ⟨1, _⟩ => rfl | ⟨2, _⟩ => rfl
  have e24 : idx_main_v24 (idx_main_v25 (ix3 (3 : Fin 4) b j)) = ix2 (3 : Fin 4) j :=
    funext fun a => match a with | ⟨0, _⟩ => rfl | ⟨1, _⟩ => rfl
  rw [val_main_v26_apply, val_main_v23_apply, val_main_v20_apply, val_main_v22_apply, val_main_v19_apply, val_main_v21_apply,
    val_main_v25_apply, val_main_v24_apply, e20, e22, e24, biasO_at, Ideal.addf_def, Ideal.addf_def]
  unfold pre
  congr 2
  · refine Finset.sum_congr rfl fun k _ => ?_
    have el : lidx_main_v19 (ix3 (3 : Fin 4) j b) k = ix3 (3 : Fin 4) j k :=
      funext fun a => match a with | ⟨0, _⟩ => rfl | ⟨1, _⟩ => rfl | ⟨2, _⟩ => rfl
    have er : ridx_main_v19 (ix3 (3 : Fin 4) j b) k = ix2 b k :=
      funext fun a => match a with | ⟨0, _⟩ => rfl | ⟨1, _⟩ => rfl
    rw [el, er, inputWeightO_at, mul_comm]
  · refine Finset.sum_congr rfl fun k _ => ?_
    have el : lidx_main_v21 (ix3 (3 : Fin 4) j b) k = ix3 (3 : Fin 4) j k :=
      funext fun a => match a with | ⟨0, _⟩ => rfl | ⟨1, _⟩ => rfl | ⟨2, _⟩ => rfl
    have er : ridx_main_v21 (ix3 (3 : Fin 4) j b) k = ix2 b k :=
      funext fun a => match a with | ⟨0, _⟩ => rfl | ⟨1, _⟩ => rfl
    rw [el, er, recurrentWeightO_at, mul_comm]

/-- Gate z's pre-activation array (slab `0` sliced out and its unit axis dropped) at row `b`, unit `j`. -/
theorem gateZ_at (b : Fin 16384) (j : Fin 1024) :
    val_main_v28 (F := Ideal) x0 x3 x4 x5 x6 x7 x8 x9 x10 x11 x12 x13 x14 x15 x16 x17 x18 x19 (ix2 b j)
      = pre x0 x3 x4 x12 x8 x16 b j := by
  have e : idx_main_v27 (idx_main_v28 (ix2 b j)) = ix3 (0 : Fin 4) b j := by
    have hb := b.isLt
    have hj := j.isLt
    funext a
    match a with
    | ⟨0, _⟩ => rfl
    | ⟨1, _⟩ => exact Fin.ext (by show (b.val * 1024 + j.val) / 1024 % 16384 = b.val; omega)
    | ⟨2, _⟩ => exact Fin.ext (by show (b.val * 1024 + j.val) % 1024 = j.val; omega)
  rw [val_main_v28_apply, val_main_v27_apply, e, preZ_at]

/-- Gate i's pre-activation array (slab `1` sliced out and its unit axis dropped) at row `b`, unit `j`. -/
theorem gateI_at (b : Fin 16384) (j : Fin 1024) :
    val_main_v30 (F := Ideal) x0 x3 x4 x5 x6 x7 x8 x9 x10 x11 x12 x13 x14 x15 x16 x17 x18 x19 (ix2 b j)
      = pre x0 x3 x5 x13 x9 x17 b j := by
  have e : idx_main_v29 (idx_main_v30 (ix2 b j)) = ix3 (1 : Fin 4) b j := by
    have hb := b.isLt
    have hj := j.isLt
    funext a
    match a with
    | ⟨0, _⟩ => rfl
    | ⟨1, _⟩ => exact Fin.ext (by show (b.val * 1024 + j.val) / 1024 % 16384 = b.val; omega)
    | ⟨2, _⟩ => exact Fin.ext (by show (b.val * 1024 + j.val) % 1024 = j.val; omega)
  rw [val_main_v30_apply, val_main_v29_apply, e, preI_at]

/-- Gate f's pre-activation array (slab `2` sliced out and its unit axis dropped) at row `b`, unit `j`. -/
theorem gateF_at (b : Fin 16384) (j : Fin 1024) :
    val_main_v32 (F := Ideal) x0 x3 x4 x5 x6 x7 x8 x9 x10 x11 x12 x13 x14 x15 x16 x17 x18 x19 (ix2 b j)
      = pre x0 x3 x6 x14 x10 x18 b j := by
  have e : idx_main_v31 (idx_main_v32 (ix2 b j)) = ix3 (2 : Fin 4) b j := by
    have hb := b.isLt
    have hj := j.isLt
    funext a
    match a with
    | ⟨0, _⟩ => rfl
    | ⟨1, _⟩ => exact Fin.ext (by show (b.val * 1024 + j.val) / 1024 % 16384 = b.val; omega)
    | ⟨2, _⟩ => exact Fin.ext (by show (b.val * 1024 + j.val) % 1024 = j.val; omega)
  rw [val_main_v32_apply, val_main_v31_apply, e, preF_at]

/-- Gate o's pre-activation array (slab `3` sliced out and its unit axis dropped) at row `b`, unit `j`. -/
theorem gateO_at (b : Fin 16384) (j : Fin 1024) :
    val_main_v34 (F := Ideal) x0 x3 x4 x5 x6 x7 x8 x9 x10 x11 x12 x13 x14 x15 x16 x17 x18 x19 (ix2 b j)
      = pre x0 x3 x7 x15 x11 x19 b j := by
  have e : idx_main_v33 (idx_main_v34 (ix2 b j)) = ix3 (3 : Fin 4) b j := by
    have hb := b.isLt
    have hj := j.isLt
    funext a
    match a with
    | ⟨0, _⟩ => rfl
    | ⟨1, _⟩ => exact Fin.ext (by show (b.val * 1024 + j.val) / 1024 % 16384 = b.val; omega)
    | ⟨2, _⟩ => exact Fin.ext (by show (b.val * 1024 + j.val) % 1024 = j.val; omega)
  rw [val_main_v34_apply, val_main_v33_apply, e, preO_at]

/-- The cell input: the hyperbolic tangent of gate z's pre-activation. -/
theorem tanhZ_at (b : Fin 16384) (j : Fin 1024) :
    val_main_v35 (F := Ideal) x0 x3 x4 x5 x6 x7 x8 x9 x10 x11 x12 x13 x14 x15 x16 x17 x18 x19 (ix2 b j)
      = Ideal.tanh (pre x0 x3 x4 x12 x8 x16 b j) := by
  rw [val_main_v35_apply, gateZ_at, Ideal.hostUnary_tanh_def]

/-- The input gate: the exponential of gate i's pre-activation. -/
theorem expI_at (b : Fin 16384) (j : Fin 1024) :
    val_main_v36 (F := Ideal) x0 x3 x4 x5 x6 x7 x8 x9 x10 x11 x12 x13 x14 x15 x16 x17 x18 x19 (ix2 b j)
      = Ideal.exp (pre x0 x3 x5 x13 x9 x17 b j) := by
  rw [val_main_v36_apply, gateI_at, Ideal.hostUnary_exp_def]

/-- The forget gate: `1 / (1 + exp (-t))` at gate f's pre-activation `t`, which is the logistic function by definition. -/
theorem logisticF_at (b : Fin 16384) (j : Fin 1024) :
    val_main_v42 (F := Ideal) x0 x3 x4 x5 x6 x7 x8 x9 x10 x11 x12 x13 x14 x15 x16 x17 x18 x19 (ix2 b j)
      = Ideal.logistic (pre x0 x3 x6 x14 x10 x18 b j) := by
  rw [val_main_v42_apply, val_main_v41_apply, val_main_cst_0_apply, val_main_v40_apply, val_main_v39_apply, val_main_cst_apply,
    val_main_v38_apply, val_main_v37_apply, gateF_at, Ideal.hostDivf_def, Ideal.addf_def, Ideal.hostUnary_exp_def,
    Ideal.hostNegf_def, Ideal.negf_def, Ideal.ofBits_def, one_f32]
  rfl

/-- The output gate: the logistic function at gate o's pre-activation. -/
theorem logisticO_at (b : Fin 16384) (j : Fin 1024) :
    val_main_v48 (F := Ideal) x0 x3 x4 x5 x6 x7 x8 x9 x10 x11 x12 x13 x14 x15 x16 x17 x18 x19 (ix2 b j)
      = Ideal.logistic (pre x0 x3 x7 x15 x11 x19 b j) := by
  rw [val_main_v48_apply, val_main_v47_apply, val_main_cst_2_apply, val_main_v46_apply, val_main_v45_apply, val_main_cst_1_apply,
    val_main_v44_apply, val_main_v43_apply, gateO_at, Ideal.hostDivf_def, Ideal.addf_def, Ideal.hostUnary_exp_def,
    Ideal.hostNegf_def, Ideal.negf_def, Ideal.ofBits_def, one_f32]
  rfl

/-- The new cell state at row `b`, unit `j`. -/
theorem cell_at (b : Fin 16384) (j : Fin 1024) :
    val_main_v51 (F := Ideal) x0 x1 x3 x4 x5 x6 x7 x8 x9 x10 x11 x12 x13 x14 x15 x16 x17 x18 x19 (ix2 b j)
      = (Args.mk x0 x1 x2 x3 x4 x5 x6 x7 x8 x9 x10 x11 x12 x13 x14 x15 x16 x17 x18 x19).cellAt b j := by
  rw [val_main_v51_apply, val_main_v49_apply, val_main_v50_apply, logisticF_at, expI_at, tanhZ_at, Ideal.addf_def, Ideal.mulf_def,
    Ideal.mulf_def]
  rfl

/-- The new normaliser at row `b`, unit `j`. -/
theorem norm_at (b : Fin 16384) (j : Fin 1024) :
    val_main_v53 (F := Ideal) x0 x2 x3 x4 x5 x6 x7 x8 x9 x10 x11 x12 x13 x14 x15 x16 x17 x18 x19 (ix2 b j)
      = (Args.mk x0 x1 x2 x3 x4 x5 x6 x7 x8 x9 x10 x11 x12 x13 x14 x15 x16 x17 x18 x19).normAt b j := by
  rw [val_main_v53_apply, val_main_v52_apply, logisticF_at, expI_at, Ideal.addf_def, Ideal.mulf_def]
  rfl

/-- The new hidden state at row `b`, unit `j`. -/
theorem hidden_at (b : Fin 16384) (j : Fin 1024) :
    val_main_v55 (F := Ideal) x0 x1 x2 x3 x4 x5 x6 x7 x8 x9 x10 x11 x12 x13 x14 x15 x16 x17 x18 x19 (ix2 b j)
      = (Args.mk x0 x1 x2 x3 x4 x5 x6 x7 x8 x9 x10 x11 x12 x13 x14 x15 x16 x17 x18 x19).hiddenAt b j := by
  rw [val_main_v55_apply, val_main_v54_apply, logisticO_at, cell_at, norm_at, Ideal.mulf_def, Ideal.hostDivf_def]
  rfl

end

/-- The reference's first result is the specification's cell state. -/
theorem cell_eq (x0 : (⟨S16384x512, .f32⟩ : BufTy).Contents (Elt Ideal)) (x1 x2 x3 : (⟨S16384x1024, .f32⟩ : BufTy).Contents (Elt Ideal)) (x4 x5 x6 x7 : (⟨S1024x512, .f32⟩ : BufTy).Contents (Elt Ideal)) (x8 x9 x10 x11 : (⟨S1024, .f32⟩ : BufTy).Contents (Elt Ideal)) (x12 x13 x14 x15 : (⟨S1024x1024, .f32⟩ : BufTy).Contents (Elt Ideal)) (x16 x17 x18 x19 : (⟨S1024, .f32⟩ : BufTy).Contents (Elt Ideal)) :
    val_main_v51 (F := Ideal) x0 x1 x3 x4 x5 x6 x7 x8 x9 x10 x11 x12 x13 x14 x15 x16 x17 x18 x19 = (Args.mk x0 x1 x2 x3 x4 x5 x6 x7 x8 x9 x10 x11 x12 x13 x14 x15 x16 x17 x18 x19).cell := by
  funext i
  obtain ⟨b, j, rfl⟩ : ∃ (b : Fin 16384) (j : Fin 1024), i = ix2 b j := ⟨i 0, i 1, eq_ix2 i⟩
  rw [Args.cell_ix2]
  exact cell_at x0 x1 x2 x3 x4 x5 x6 x7 x8 x9 x10 x11 x12 x13 x14 x15 x16 x17 x18 x19 b j

/-- The reference's second result is the specification's normaliser. -/
theorem norm_eq (x0 : (⟨S16384x512, .f32⟩ : BufTy).Contents (Elt Ideal)) (x1 x2 x3 : (⟨S16384x1024, .f32⟩ : BufTy).Contents (Elt Ideal)) (x4 x5 x6 x7 : (⟨S1024x512, .f32⟩ : BufTy).Contents (Elt Ideal)) (x8 x9 x10 x11 : (⟨S1024, .f32⟩ : BufTy).Contents (Elt Ideal)) (x12 x13 x14 x15 : (⟨S1024x1024, .f32⟩ : BufTy).Contents (Elt Ideal)) (x16 x17 x18 x19 : (⟨S1024, .f32⟩ : BufTy).Contents (Elt Ideal)) :
    val_main_v53 (F := Ideal) x0 x2 x3 x4 x5 x6 x7 x8 x9 x10 x11 x12 x13 x14 x15 x16 x17 x18 x19 = (Args.mk x0 x1 x2 x3 x4 x5 x6 x7 x8 x9 x10 x11 x12 x13 x14 x15 x16 x17 x18 x19).norm := by
  funext i
  obtain ⟨b, j, rfl⟩ : ∃ (b : Fin 16384) (j : Fin 1024), i = ix2 b j := ⟨i 0, i 1, eq_ix2 i⟩
  rw [Args.norm_ix2]
  exact norm_at x0 x1 x2 x3 x4 x5 x6 x7 x8 x9 x10 x11 x12 x13 x14 x15 x16 x17 x18 x19 b j

/-- The reference's third result is the specification's hidden state. -/
theorem hidden_eq (x0 : (⟨S16384x512, .f32⟩ : BufTy).Contents (Elt Ideal)) (x1 x2 x3 : (⟨S16384x1024, .f32⟩ : BufTy).Contents (Elt Ideal)) (x4 x5 x6 x7 : (⟨S1024x512, .f32⟩ : BufTy).Contents (Elt Ideal)) (x8 x9 x10 x11 : (⟨S1024, .f32⟩ : BufTy).Contents (Elt Ideal)) (x12 x13 x14 x15 : (⟨S1024x1024, .f32⟩ : BufTy).Contents (Elt Ideal)) (x16 x17 x18 x19 : (⟨S1024, .f32⟩ : BufTy).Contents (Elt Ideal)) :
    val_main_v55 (F := Ideal) x0 x1 x2 x3 x4 x5 x6 x7 x8 x9 x10 x11 x12 x13 x14 x15 x16 x17 x18 x19 = (Args.mk x0 x1 x2 x3 x4 x5 x6 x7 x8 x9 x10 x11 x12 x13 x14 x15 x16 x17 x18 x19).hidden := by
  funext i
  obtain ⟨b, j, rfl⟩ : ∃ (b : Fin 16384) (j : Fin 1024), i = ix2 b j := ⟨i 0, i 1, eq_ix2 i⟩
  rw [Args.hidden_ix2]
  exact hidden_at x0 x1 x2 x3 x4 x5 x6 x7 x8 x9 x10 x11 x12 x13 x14 x15 x16 x17 x18 x19 b j

end Cert.ReferenceIdeal.CellStep

end
-- ==== Proof.lean ====
/-
  An sLSTM cell step as a Pallas kernel, against its jnp reference.

  Both programs take a batch of 16384 rows (x, and the previous cell state, normaliser and hidden state) and, for each
  of four gates, an input weight, a recurrent weight and two bias vectors, and return the new cell state, normaliser
  and hidden state (Proof/CellStep.lean states the step entry by entry).

  The kernel packs the four gates' weights side by side so that one 4096-column product computes all four
  pre-activations, and walks the batch 256 rows at a time over a grid of 64 points; the reference stacks the gates along
  a new axis and contracts with the weight as the left factor. At the exact instance -- floats read as extended reals,
  rounding to a narrower format the identity -- both compute the same entries: each pre-activation is the same two sums,
  up to the order of the two factors in each product, and the gates, cell, normaliser and hidden state are the same
  pointwise formulas of it (the reference's 1 / (1 + exp (-t)) is the logistic function by definition). Commutativity
  of multiplication is the only law used, so the finiteness precondition is never opened.

    * The three frames: each program runs to the end without a fault and leaves its twenty arguments unchanged. For the
      kernel (as printed, and idealized) this is the launch theorem applied to the body's run at one grid point
      (Proof/KernelEntry, KernelBody, KernelRun and their KernelIdeal twins); for the reference it is its run.
    * The idealized kernel is the kernel's own text read at the exact instance: nothing was rewritten, so there is
      nothing to preserve.
    * The values: the kernel's three result arrays are the cell step of its arguments (Proof/KernelIdealArrays), and so
      are the reference's (Proof/ReferenceCellStep); the arguments agree, so the results are equal.
-/
import proofs.«142605_j28226525070218_1_alg».proof.Defs
import proofs.«142605_j28226525070218_1_alg».proof.Proof.Gen.Kernel
import proofs.«142605_j28226525070218_1_alg».proof.Proof.Gen.KernelIdeal
import proofs.«142605_j28226525070218_1_alg».proof.Proof.Gen.ReferenceIdeal
import proofs.«142605_j28226525070218_1_alg».proof.Proof.Gen.Pre_finite_inputs
import proofs.«142605_j28226525070218_1_alg».proof.Proof.Gen.ReferenceIdeal.Run
import proofs.«142605_j28226525070218_1_alg».proof.Proof.Gen.ReferenceIdeal.Read
import proofs.«142605_j28226525070218_1_alg».proof.Proof.KernelRun
import proofs.«142605_j28226525070218_1_alg».proof.Proof.KernelIdealArrays
import proofs.«142605_j28226525070218_1_alg».proof.Proof.ReferenceCellStep
import Idealize.ShloMosaic.Adequacy
import Idealize.ShloMosaic.Init

noncomputable section

namespace Cert.Proof

open Idealize.ShloMosaic Idealize.SL.Sem Cert.CellStep

/-! ## The frames -/

theorem frame_kernel : Cert.frame_Kernel := fun m ρ _ =>
  (θ_run Cert.Kernel.defs _ _).mono (fun r h c => Cert.Kernel.Run.args_kept m h c) (Cert.Kernel.Run.run_main (F := Bits) m ρ)

theorem frame_kernelIdeal : Cert.frame_KernelIdeal := fun m ρ _ =>
  (θ_run Cert.KernelIdeal.defs _ _).mono (fun r h c => Cert.KernelIdeal.Run.args_kept m h c)
    (Cert.KernelIdeal.Run.run_main (F := Ideal) m ρ)

theorem frame_reference : Cert.frame_ReferenceIdeal := fun m ρ _ =>
  (θ_run Cert.ReferenceIdeal.defs _ _).mono (fun _ h c => (h c).2.2.2) (Cert.ReferenceIdeal.Value.run (F := Ideal) m ρ)

/-! ## The values -/

/-- The reference's twenty arguments on core `c`. -/
def refArgs (m' : (ℓ : Loc Cert.ReferenceIdeal.nD Cert.ReferenceIdeal.τ Cert.ReferenceIdeal.sig) → Buf (Elt Ideal) ℓ) (c : Dev Cert.ReferenceIdeal.nD) : Args :=
  Args.mk (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))
    (m' ((c.tc : Thread Cert.ReferenceIdeal.nD Cert.ReferenceIdeal.τ).loc Cert.ReferenceIdeal.main_arg7))
    (m' ((c.tc : Thread Cert.ReferenceIdeal.nD Cert.ReferenceIdeal.τ).loc Cert.ReferenceIdeal.main_arg8))
    (m' ((c.tc : Thread Cert.ReferenceIdeal.nD Cert.ReferenceIdeal.τ).loc Cert.ReferenceIdeal.main_arg9))
    (m' ((c.tc : Thread Cert.ReferenceIdeal.nD Cert.ReferenceIdeal.τ).loc Cert.ReferenceIdeal.main_arg10))
    (m' ((c.tc : Thread Cert.ReferenceIdeal.nD Cert.ReferenceIdeal.τ).loc Cert.ReferenceIdeal.main_arg11))
    (m' ((c.tc : Thread Cert.ReferenceIdeal.nD Cert.ReferenceIdeal.τ).loc Cert.ReferenceIdeal.main_arg12))
    (m' ((c.tc : Thread Cert.ReferenceIdeal.nD Cert.ReferenceIdeal.τ).loc Cert.ReferenceIdeal.main_arg13))
    (m' ((c.tc : Thread Cert.ReferenceIdeal.nD Cert.ReferenceIdeal.τ).loc Cert.ReferenceIdeal.main_arg14))
    (m' ((c.tc : Thread Cert.ReferenceIdeal.nD Cert.ReferenceIdeal.τ).loc Cert.ReferenceIdeal.main_arg15))
    (m' ((c.tc : Thread Cert.ReferenceIdeal.nD Cert.ReferenceIdeal.τ).loc Cert.ReferenceIdeal.main_arg16))
    (m' ((c.tc : Thread Cert.ReferenceIdeal.nD Cert.ReferenceIdeal.τ).loc Cert.ReferenceIdeal.main_arg17))
    (m' ((c.tc : Thread Cert.ReferenceIdeal.nD Cert.ReferenceIdeal.τ).loc Cert.ReferenceIdeal.main_arg18))
    (m' ((c.tc : Thread Cert.ReferenceIdeal.nD Cert.ReferenceIdeal.τ).loc Cert.ReferenceIdeal.main_arg19))

theorem reference_cell (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v51 m' c = (refArgs m' c).cell :=
  (Cert.ReferenceIdeal.Read.val_main_v51_eq m' c).trans (Cert.ReferenceIdeal.CellStep.cell_eq _ _ _ _ _ _ _ _ _ _ _ _ _ _ _ _ _ _ _ _)

theorem reference_norm (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v53 m' c = (refArgs m' c).norm :=
  (Cert.ReferenceIdeal.Read.val_main_v53_eq m' c).trans (Cert.ReferenceIdeal.CellStep.norm_eq _ _ _ _ _ _ _ _ _ _ _ _ _ _ _ _ _ _ _ _)

theorem reference_hidden (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v55 m' c = (refArgs m' c).hidden :=
  (Cert.ReferenceIdeal.Read.val_main_v55_eq m' c).trans (Cert.ReferenceIdeal.CellStep.hidden_eq _ _ _ _ _ _ _ _ _ _ _ _ _ _ _ _ _ _ _ _)

/-- Both idealized programs, from memories that agree on the arguments, end with the cell step of those arguments in
    their three results, and with the arguments unchanged. -/
theorem algebraic : Cert.algebraic_KernelIdeal_ReferenceIdeal := by
  intro m ρ m' ρ' _ hagree
  refine ⟨fun c => (Cert.KernelIdeal.Arrays.args m c).cell, fun c => (Cert.KernelIdeal.Arrays.args m c).norm,
    fun c => (Cert.KernelIdeal.Arrays.args m c).hidden, ?_, ?_⟩
  · exact (θ_run Cert.KernelIdeal.defs _ _).mono (fun r h c =>
      ⟨((h c).1 7).trans (Cert.KernelIdeal.Arrays.cell_final m c),
       ((h c).1 8).trans (Cert.KernelIdeal.Arrays.norm_final m c),
       ((h c).1 9).trans (Cert.KernelIdeal.Arrays.hidden_final m c),
       Cert.KernelIdeal.Run.args_kept m h c⟩) (Cert.KernelIdeal.Run.run_main (F := Ideal) m ρ)
  · refine (θ_run Cert.ReferenceIdeal.defs _ _).mono (fun r h c => ?_) (Cert.ReferenceIdeal.Value.run (F := Ideal) m' ρ')
    have e : refArgs m' c = Cert.KernelIdeal.Arrays.args m c := by
      obtain ⟨h0, h1, h2, h3, h4, h5, h6, h7, h8, h9, h10, h11, h12, h13, h14, h15, h16, h17, h18, h19⟩ := hagree c
      unfold refArgs Cert.KernelIdeal.Arrays.args
      rw [h0, h1, h2, h3, h4, h5, h6, h7, h8, h9, h10, h11, h12, h13, h14, h15, h16, h17, h18, h19]
    exact ⟨(h c).1.trans ((reference_cell m' c).trans (congrArg Args.cell e)),
      (h c).2.1.trans ((reference_norm m' c).trans (congrArg Args.norm e)),
      (h c).2.2.1.trans ((reference_hidden m' c).trans (congrArg Args.hidden e)),
      (h c).2.2.2⟩

/-! ## The claim -/

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
